-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2304x512 : Shape := ⟨3, ![4, 2304, 512]⟩
abbrev S1536x512 : Shape := ⟨2, ![1536, 512]⟩
abbrev S1536 : Shape := ⟨1, ![1536]⟩
abbrev S512x512 : Shape := ⟨2, ![512, 512]⟩
abbrev S512 : Shape := ⟨1, ![512]⟩
abbrev S_ : Shape := ⟨0, ![]⟩

class Facts : Prop where
  bcast_S_S4x2304x512 : S_.BroadcastsInDim S4x2304x512 (![] : Fin 0 → Fin S4x2304x512.rank)
  reducesTo_S4x2304x512_S_d0_1_2 : S4x2304x512.ReducesTo [0, 1, 2] S_
  h_S_ : 0 < S_.numel
  bcast_S_S1536x512 : S_.BroadcastsInDim S1536x512 (![] : Fin 0 → Fin S1536x512.rank)
  reducesTo_S1536x512_S_d0_1 : S1536x512.ReducesTo [0, 1] S_
  bcast_S_S1536 : S_.BroadcastsInDim S1536 (![] : Fin 0 → Fin S1536.rank)
  reducesTo_S1536_S_d0 : S1536.ReducesTo [0] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S4x2304x512 .f32) (main_arg1 : FVec F S1536x512 .f32) (main_arg2 : FVec F S1536 .f32) (main_arg3 : FVec F S512x512 .f32) (main_arg4 : FVec F S512 .f32) : IVec S_ 1 :=
  let main_v0 : FVec F S4x2304x512 .f32 := Host.absf main_arg0
  let main_cst : FVec F S_ .f32 := constant S_ .f32 0x7F800000#32
  let main_v1 : FVec F S4x2304x512 .f32 := broadcastInDim S4x2304x512 ![] bcast_S_S4x2304x512 main_cst
  let main_v2 : IVec S4x2304x512 1 := cmpf .olt main_v0 main_v1
  let main_c : IVec S_ 1 := constantI S_ 1 1#1
  let main_v3 : IVec S_ 1 := (fun x v => Host.reduce IntOp.andi x v reducesTo_S4x2304x512_S_d0_1_2 h_S_) main_v2 main_c
  let main_v4 : FVec F S1536x512 .f32 := Host.absf main_arg1
  let main_cst_0 : FVec F S_ .f32 := constant S_ .f32 0x7F800000#32
  let main_v5 : FVec F S1536x512 .f32 := broadcastInDim S1536x512 ![] bcast_S_S1536x512 main_cst_0
  let main_v6 : IVec S1536x512 1 := cmpf .olt main_v4 main_v5
  let main_c_1 : IVec S_ 1 := constantI S_ 1 1#1
  let main_v7 : IVec S_ 1 := (fun x v => Host.reduce IntOp.andi x v reducesTo_S1536x512_S_d0_1 h_S_) main_v6 main_c_1
  let main_v8 : IVec S_ 1 := andi main_v3 main_v7
  let main_v9 : FVec F S1536 .f32 := Host.absf main_arg2
  let main_cst_2 : FVec F S_ .f32 := constant S_ .f32 0x7F800000#32
  let main_v10 : FVec F S1536 .f32 := broadcastInDim S1536 ![] bcast_S_S1536 main_cst_2
  let main_v11 : IVec S1536 1 := cmpf .olt main_v9 main_v10
  let main_c_3 : IVec S_ 1 := constantI S_ 1 1#1
  let main_v12 : IVec S_ 1 := (fun x v => Host.reduce IntOp.andi x v reducesTo_S1536_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_v13 main_v16
-- ==== Kernel.lean ====
abbrev S4x2304x512 : Shape := ⟨3, ![4, 2304, 512]⟩
abbrev S1536x512 : Shape := ⟨2, ![1536, 512]⟩
abbrev S1536 : Shape := ⟨1, ![1536]⟩
abbrev S512x512 : Shape := ⟨2, ![512, 512]⟩
abbrev S512 : Shape := ⟨1, ![512]⟩
abbrev S9216x512 : Shape := ⟨2, ![9216, 512]⟩
abbrev S9216x1536 : Shape := ⟨2, ![9216, 1536]⟩
abbrev S512x1536 : Shape := ⟨2, ![512, 1536]⟩
abbrev S1x1536 : Shape := ⟨2, ![1, 1536]⟩
abbrev S4x2304x1536 : Shape := ⟨3, ![4, 2304, 1536]⟩
abbrev S4x768x1536 : Shape := ⟨3, ![4, 768, 1536]⟩
abbrev S4x2304x8x64 : Shape := ⟨4, ![4, 2304, 8, 64]⟩
abbrev S4x8x2304x64 : Shape := ⟨4, ![4, 8, 2304, 64]⟩
abbrev S32x2304x64 : Shape := ⟨3, ![32, 2304, 64]⟩
abbrev S32x64x64 : Shape := ⟨3, ![32, 64, 64]⟩
abbrev S1x2304x64 : Shape := ⟨3, ![1, 2304, 64]⟩
abbrev S1x64x64 : Shape := ⟨3, ![1, 64, 64]⟩
abbrev S2304x64 : Shape := ⟨2, ![2304, 64]⟩
abbrev S64x64 : Shape := ⟨2, ![64, 64]⟩
abbrev S512x8x64 : Shape := ⟨3, ![512, 8, 64]⟩
abbrev S8x512x64 : Shape := ⟨3, ![8, 512, 64]⟩
abbrev S1x768x64 : Shape := ⟨3, ![1, 768, 64]⟩
abbrev S1x512x64 : Shape := ⟨3, ![1, 512, 64]⟩
abbrev S1x768x512 : Shape := ⟨3, ![1, 768, 512]⟩
abbrev S768x512 : Shape := ⟨2, ![768, 512]⟩
abbrev S768x64 : Shape := ⟨2, ![768, 64]⟩
abbrev S512x64 : Shape := ⟨2, ![512, 64]⟩
abbrev S1x512 : Shape := ⟨2, ![1, 512]⟩

abbrev nBuf : Space → Nat
  | .hbm => 26
  | .vmem => 21
  | .smem => 0
  | _ => 0

abbrev bufTy : (tb : Table) → Fin (tcTables nBuf tb) → BufTy
  | .hbm, ⟨0, _⟩ => ⟨S4x2304x512, .f32⟩
  | .hbm, ⟨1, _⟩ => ⟨S1536x512, .f32⟩
  | .hbm, ⟨2, _⟩ => ⟨S1536, .f32⟩
  | .hbm, ⟨3, _⟩ => ⟨S512x512, .f32⟩
  | .hbm, ⟨4, _⟩ => ⟨S512, .f32⟩
  | .hbm, ⟨5, _⟩ => ⟨S1536x512, .bf16⟩
  | .hbm, ⟨6, _⟩ => ⟨S512x512, .bf16⟩
  | .hbm, ⟨7, _⟩ => ⟨S9216x512, .f32⟩
  | .hbm, ⟨8, _⟩ => ⟨S9216x1536, .bf16⟩
  | .hbm, ⟨9, _⟩ => ⟨S4x2304x1536, .bf16⟩
  | .hbm, ⟨10, _⟩ => ⟨S4x768x1536, .bf16⟩
  | .hbm, ⟨11, _⟩ => ⟨S4x768x1536, .bf16⟩
  | .hbm, ⟨12, _⟩ => ⟨S4x768x1536, .bf16⟩
  | .hbm, ⟨13, _⟩ => ⟨S4x2304x8x64, .bf16⟩
  | .hbm, ⟨14, _⟩ => ⟨S4x8x2304x64, .bf16⟩
  | .hbm, ⟨15, _⟩ => ⟨S32x2304x64, .bf16⟩
  | .hbm, ⟨16, _⟩ => ⟨S4x2304x8x64, .bf16⟩
  | .hbm, ⟨17, _⟩ => ⟨S4x8x2304x64, .bf16⟩
  | .hbm, ⟨18, _⟩ => ⟨S32x2304x64, .bf16⟩
  | .hbm, ⟨19, _⟩ => ⟨S4x2304x8x64, .bf16⟩
  | .hbm, ⟨20, _⟩ => ⟨S4x8x2304x64, .bf16⟩
  | .hbm, ⟨21, _⟩ => ⟨S32x2304x64, .bf16⟩
  | .hbm, ⟨22, _⟩ => ⟨S32x64x64, .bf16⟩
  | .hbm, ⟨23, _⟩ => ⟨S512x8x64, .bf16⟩
  | .hbm, ⟨24, _⟩ => ⟨S8x512x64, .bf16⟩
  | .hbm, ⟨25, _⟩ => ⟨S4x2304x512, .f32⟩
  | .local _ .vmem, ⟨0, _⟩ => ⟨S512x512, .f32⟩
  | .local _ .vmem, ⟨1, _⟩ => ⟨S512x512, .f32⟩
  | .local _ .vmem, ⟨2, _⟩ => ⟨S1536x512, .bf16⟩
  | .local _ .vmem, ⟨3, _⟩ => ⟨S1536, .f32⟩
  | .local _ .vmem, ⟨4, _⟩ => ⟨S512x1536, .bf16⟩
  | .local _ .vmem, ⟨5, _⟩ => ⟨S512x1536, .bf16⟩
  | .local _ .vmem, ⟨6, _⟩ => ⟨S1x2304x64, .bf16⟩
  | .local _ .vmem, ⟨7, _⟩ => ⟨S1x2304x64, .bf16⟩
  | .local _ .vmem, ⟨8, _⟩ => ⟨S1x2304x64, .bf16⟩
  | .local _ .vmem, ⟨9, _⟩ => ⟨S1x2304x64, .bf16⟩
  | .local _ .vmem, ⟨10, _⟩ => ⟨S1x64x64, .bf16⟩
  | .local _ .vmem, ⟨11, _⟩ => ⟨S1x64x64, .bf16⟩
  | .local _ .vmem, ⟨12, _⟩ => ⟨S1x768x64, .bf16⟩
  | .local _ .vmem, ⟨13, _⟩ => ⟨S1x768x64, .bf16⟩
  | .local _ .vmem, ⟨14, _⟩ => ⟨S1x64x64, .bf16⟩
  | .local _ .vmem, ⟨15, _⟩ => ⟨S1x64x64, .bf16⟩
  | .local _ .vmem, ⟨16, _⟩ => ⟨S1x512x64, .bf16⟩
  | .local _ .vmem, ⟨17, _⟩ => ⟨S1x512x64, .bf16⟩
  | .local _ .vmem, ⟨18, _⟩ => ⟨S512, .f32⟩
  | .local _ .vmem, ⟨19, _⟩ => ⟨S1x768x512, .f32⟩
  | .local _ .vmem, ⟨20, _⟩ => ⟨S1x768x512, .f32⟩
  | _, _ => ⟨S4x2304x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem4_1 : DmaSem sig := 20

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2304x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x2304x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x64x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨3, ![4, 3, 8], ![false, false, false]⟩

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  ![v1.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  let c0_i32_1 : BitVec 32 := 0#32
  ![v1.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc2_transform_3 (i : grid2.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc2_transform_4 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage2_0 : Fin 2 → Memref sig .tc .vmem S1x768x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, true]

abbrev stage2_1 : Fin 2 → Memref sig .tc .vmem S1x64x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true]

abbrev stage2_2 : Fin 2 → Memref sig .tc .vmem S1x512x64 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, false, true]

abbrev stage2_3 : Fin 1 → Memref sig .tc .vmem S512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false, false]

abbrev stage2_4 : Fin 2 → Memref sig .tc .vmem S1x768x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, false]

class Facts₀ : Prop where
  bitsLt_bf16_f32 : FTy.bits .bf16 < FTy.bits .f32
  shapeCasts_S4x2304x512_S9216x512 : S4x2304x512.ShapeCasts S9216x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1536x512_S1536x512_0_0 : ∀ a, (![0, 0] : Fin 2 → Nat) a + S1536x512.size a ≤ S1536x512.size a
  h_S1536x512 : 0 < S1536x512.numel
  shapeCasts_S1536x512_S1536x512 : S1536x512.ShapeCasts S1536x512
  inb_S1536_S1536_0 : ∀ a, (![0] : Fin 1 → Nat) a + S1536.size a ≤ S1536.size a
  h_S1536 : 0 < S1536.numel
  shapeCasts_S1536_S1x1536 : S1536.ShapeCasts S1x1536
  broadcasts_S1x1536_S512x1536 : S1x1536.Broadcasts S512x1536
  inb_S512x1536_S512x1536_0_0 : ∀ a, (![0, 0] : Fin 2 → Nat) a + S512x1536.size a ≤ S512x1536.size a
  h_S512x1536 : 0 < S512x1536.numel
  packedbf16_S512x1536_S512x1536_0_0 : (Rect.unit (s := S512x1536) ![0, 0] S512x1536.size inb_S512x1536_S512x1536_0_0).PackedRows (EltTy.packing .bf16)
  shapeCasts_S9216x1536_S4x2304x1536 : S9216x1536.ShapeCasts S4x2304x1536
  slices_S4x2304x1536_S4x768x1536_0_0_0 : S4x2304x1536.Slices ![0, 0, 0] S4x768x1536
  slices_S4x2304x1536_S4x768x1536_0_768_0 : S4x2304x1536.Slices ![0, 768, 0] S4x768x1536
  slices_S4x2304x1536_S4x768x1536_0_1536_0 : S4x2304x1536.Slices ![0, 1536, 0] S4x768x1536
  shapeCasts_S4x768x1536_S4x2304x8x64 : S4x768x1536.ShapeCasts S4x2304x8x64
  transposes_S4x2304x8x64_S4x8x2304x64_0_2_1_3 : S4x2304x8x64.Transposes [0, 2, 1, 3] S4x8x2304x64
  shapeCasts_S4x8x2304x64_S32x2304x64 : S4x8x2304x64.ShapeCasts S32x2304x64
  inb_S1x2304x64_S1x2304x64_0_0_0 : ∀ a, (![0, 0, 0] : Fin 3 → Nat) a + S1x2304x64.size a ≤ S1x2304x64.size a
  h_S1x2304x64 : 0 < S1x2304x64.numel
  shapeCasts_S1x2304x64_S2304x64 : S1x2304x64.ShapeCasts S2304x64
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S64x64_S1x64x64 : S64x64.ShapeCasts S1x64x64
  packedbf16_S1x64x64_S1x64x64_0_0_0 : (Rect.unit (s := S1x64x64) ![0, 0, 0] S1x64x64.size inb_S1x64x64_S1x64x64_0_0_0).PackedRows (EltTy.packing .bf16)
  shapeCasts_S512x512_S512x8x64 : S512x512.ShapeCasts S512x8x64
  transposes_S512x8x64_S8x512x64_1_0_2 : S512x8x64.Transposes [1, 0, 2] S8x512x64
  inb_S1x768x512_S1x768x512_0_0_0 : ∀ a, (![0, 0, 0] : Fin 3 → Nat) a + S1x768x512.size a ≤ S1x768x512.size a
  h_S1x768x512 : 0 < S1x768x512.numel
  shapeCasts_S1x768x512_S768x512 : S1x768x512.ShapeCasts S768x512
  shapeCasts_S768x512_S1x768x512 : S768x512.ShapeCasts S1x768x512
  inb_S1x768x64_S1x768x64_0_0_0 : ∀ a, (![0, 0, 0] : Fin 3 → Nat) a + S1x768x64.size a ≤ S1x768x64.size a
  h_S1x768x64 : 0 < S1x768x64.numel
  shapeCasts_S1x768x64_S768x64 : S1x768x64.ShapeCasts S768x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S512_S512_0 : ∀ a, (![0] : Fin 1 → Nat) a + S512.size a ≤ S512.size a
  h_S512 : 0 < S512.numel
  shapeCasts_S512_S1x512 : S512.ShapeCasts S1x512
  broadcasts_S1x512_S768x512 : S1x512.Broadcasts S768x512
  dot_S512x512_S1536x512_S512x1536_1_1_0_0_n_n_wf : DotDims.WF S512x512 S1536x512 S512x1536 [1] [1] [0] [0] [] []
  dot_S2304x64_S2304x64_S64x64_0_0_1_1_n_n_wf : DotDims.WF S2304x64 S2304x64 S64x64 [0] [0] [1] [1] [] []
  dot_S768x64_S64x64_S768x64_1_0_0_1_n_n_wf : DotDims.WF S768x64 S64x64 S768x64 [1] [0] [0] [1] [] []
  dot_S768x64_S512x64_S768x512_1_1_0_0_n_n_wf : DotDims.WF S768x64 S512x64 S768x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S9216x512.size a
  hwx0_0 : ∀ i : grid0.Coords, EltTy.bits .f32 = 32 ∨ (Rect.block (s := S9216x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1536x512.size a ≤ S1536x512.size a
  hwx0_1 : ∀ i : grid0.Coords, EltTy.bits .bf16 = 32 ∨ (Rect.block (s := S1536x512) S1536x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1536.size a ≤ S1536.size a
  hwx0_2 : ∀ i : grid0.Coords, EltTy.bits .f32 = 32 ∨ (Rect.block (s := S1536) S1536.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1536.size a ≤ S9216x1536.size a
  hwx0_3 : ∀ i : grid0.Coords, EltTy.bits .bf16 = 32 ∨ (Rect.block (s := S9216x1536) S512x1536.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2304x64.size a ≤ S32x2304x64.size a
  hwx1_0 : ∀ i : grid1.Coords, EltTy.bits .bf16 = 32 ∨ (Rect.block (s := S32x2304x64) S1x2304x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2304x64.size a ≤ S32x2304x64.size a
  hwx1_1 : ∀ i : grid1.Coords, EltTy.bits .bf16 = 32 ∨ (Rect.block (s := S32x2304x64) S1x2304x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x64x64.size a ≤ S32x64x64.size a
  hwx1_2 : ∀ i : grid1.Coords, EltTy.bits .bf16 = 32 ∨ (Rect.block (s := S32x64x64) S1x64x64.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x768x64.size a ≤ S32x2304x64.size a
  hwx2_0 : ∀ i : grid2.Coords, EltTy.bits .bf16 = 32 ∨ (Rect.block (s := S32x2304x64) S1x768x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x64x64.size a ≤ S32x64x64.size a
  hwx2_1 : ∀ i : grid2.Coords, EltTy.bits .bf16 = 32 ∨ (Rect.block (s := S32x64x64) S1x64x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x512x64.size a ≤ S8x512x64.size a
  hwx2_2 : ∀ i : grid2.Coords, EltTy.bits .bf16 = 32 ∨ (Rect.block (s := S8x512x64) S1x512x64.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512.size a ≤ S512.size a
  hwx2_3 : ∀ i : grid2.Coords, EltTy.bits .f32 = 32 ∨ (Rect.block (s := S512) S512.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x768x512.size a ≤ S4x2304x512.size a
  hwx2_4 : ∀ i : grid2.Coords, EltTy.bits .f32 = 32 ∨ (Rect.block (s := S4x2304x512) S1x768x512.size (cc2_transform_4 i) (hinb2_4 i)).WholeWords (EltTy.packing .f32)

variable [Facts₀]

def dot_S512x512_S1536x512_S512x1536_1_1_0_0_n_n : DotDims S512x512 S1536x512 S512x1536 where
  lhsContracting := [1]
  rhsContracting := [1]
  lhsNonContracting := [0]
  rhsNonContracting := [0]
  lhsBatch := []
  rhsBatch := []
  wf := dot_S512x512_S1536x512_S512x1536_1_1_0_0_n_n_wf
def dot_S2304x64_S2304x64_S64x64_0_0_1_1_n_n : DotDims S2304x64 S2304x64 S64x64 where
  lhsContracting := [0]
  rhsContracting := [0]
  lhsNonContracting := [1]
  rhsNonContracting := [1]
  lhsBatch := []
  rhsBatch := []
  wf := dot_S2304x64_S2304x64_S64x64_0_0_1_1_n_n_wf
def dot_S768x64_S64x64_S768x64_1_0_0_1_n_n : DotDims S768x64 S64x64 S768x64 where
  lhsContracting := [1]
  rhsContracting := [0]
  lhsNonContracting := [0]
  rhsNonContracting := [1]
  lhsBatch := []
  rhsBatch := []
  wf := dot_S768x64_S64x64_S768x64_1_0_0_1_n_n_wf
def dot_S768x64_S512x64_S768x512_1_1_0_0_n_n : DotDims S768x64 S512x64 S768x512 where
  lhsContracting := [1]
  rhsContracting := [1]
  lhsNonContracting := [0]
  rhsNonContracting := [0]
  lhsBatch := []
  rhsBatch := []
  wf := dot_S768x64_S512x64_S768x512_1_1_0_0_n_n_wf

abbrev win0_0 : Pipeline.Window sig grid0 :=
  Pipeline.Window.ofSpec (Memref.whole main_v2) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1536x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x1536.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v13) S1x2304x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S1x2304x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1x64x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v10) S1x768x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S1x64x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v19) S1x512x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg4) S512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v20) S1x768x512.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S4x2304x512 : Shape := ⟨3, ![4, 2304, 512]⟩
abbrev S1536x512 : Shape := ⟨2, ![1536, 512]⟩
abbrev S1536 : Shape := ⟨1, ![1536]⟩
abbrev S512x512 : Shape := ⟨2, ![512, 512]⟩
abbrev S512 : Shape := ⟨1, ![512]⟩
abbrev S4x2304x1536 : Shape := ⟨3, ![4, 2304, 1536]⟩
abbrev S1x1x1536 : Shape := ⟨3, ![1, 1, 1536]⟩
abbrev S4x768x1536 : Shape := ⟨3, ![4, 768, 1536]⟩
abbrev S4x2304x8x64 : Shape := ⟨4, ![4, 2304, 8, 64]⟩
abbrev S4x8x2304x64 : Shape := ⟨4, ![4, 8, 2304, 64]⟩
abbrev S4x8x2304x2304 : Shape := ⟨4, ![4, 8, 2304, 2304]⟩
abbrev S_ : Shape := ⟨0, ![]⟩
abbrev S1x1x512 : Shape := ⟨3, ![1, 1, 512]⟩

abbrev nBuf : Space → Nat
  | .hbm => 29
  | .vmem => 0
  | .smem => 0
  | _ => 0

abbrev bufTy : (tb : Table) → Fin (tcTables nBuf tb) → BufTy
  | .hbm, ⟨0, _⟩ => ⟨S4x2304x512, .f32⟩
  | .hbm, ⟨1, _⟩ => ⟨S1536x512, .f32⟩
  | .hbm, ⟨2, _⟩ => ⟨S1536, .f32⟩
  | .hbm, ⟨3, _⟩ => ⟨S512x512, .f32⟩
  | .hbm, ⟨4, _⟩ => ⟨S512, .f32⟩
  | .hbm, ⟨5, _⟩ => ⟨S4x2304x1536, .f32⟩
  | .hbm, ⟨6, _⟩ => ⟨S1x1x1536, .f32⟩
  | .hbm, ⟨7, _⟩ => ⟨S4x2304x1536, .f32⟩
  | .hbm, ⟨8, _⟩ => ⟨S4x2304x1536, .f32⟩
  | .hbm, ⟨9, _⟩ => ⟨S4x768x1536, .f32⟩
  | .hbm, ⟨10, _⟩ => ⟨S4x768x1536, .f32⟩
  | .hbm, ⟨11, _⟩ => ⟨S4x768x1536, .f32⟩
  | .hbm, ⟨12, _⟩ => ⟨S4x2304x8x64, .f32⟩
  | .hbm, ⟨13, _⟩ => ⟨S4x8x2304x64, .f32⟩
  | .hbm, ⟨14, _⟩ => ⟨S4x2304x8x64, .f32⟩
  | .hbm, ⟨15, _⟩ => ⟨S4x8x2304x64, .f32⟩
  | .hbm, ⟨16, _⟩ => ⟨S4x2304x8x64, .f32⟩
  | .hbm, ⟨17, _⟩ => ⟨S4x8x2304x64, .f32⟩
  | .hbm, ⟨18, _⟩ => ⟨S4x8x2304x2304, .f32⟩
  | .hbm, ⟨19, _⟩ => ⟨S_, .f32⟩
  | .hbm, ⟨20, _⟩ => ⟨S4x8x2304x2304, .f32⟩
  | .hbm, ⟨21, _⟩ => ⟨S4x8x2304x2304, .f32⟩
  | .hbm, ⟨22, _⟩ => ⟨S4x8x2304x64, .f32⟩
  | .hbm, ⟨23, _⟩ => ⟨S4x2304x8x64, .f32⟩
  | .hbm, ⟨24, _⟩ => ⟨S4x2304x512, .f32⟩
  | .hbm, ⟨25, _⟩ => ⟨S4x2304x512, .f32⟩
  | .hbm, ⟨26, _⟩ => ⟨S1x1x512, .f32⟩
  | .hbm, ⟨27, _⟩ => ⟨S4x2304x512, .f32⟩
  | .hbm, ⟨28, _⟩ => ⟨S4x2304x512, .f32⟩
  | _, _ => ⟨S4x2304x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]

class Facts₀ : Prop where
  bcast_S1536_S1x1x1536_2 : S1536.BroadcastsInDim S1x1x1536 (![2] : Fin 1 → Fin S1x1x1536.rank)
  bcast_S1x1x1536_S4x2304x1536_0_1_2 : S1x1x1536.BroadcastsInDim S4x2304x1536 (![0, 1, 2] : Fin 3 → Fin S4x2304x1536.rank)
  slices_S4x2304x1536_S4x768x1536_0_0_0 : S4x2304x1536.Slices ![0, 0, 0] S4x768x1536
  slices_S4x2304x1536_S4x768x1536_0_768_0 : S4x2304x1536.Slices ![0, 768, 0] S4x768x1536
  slices_S4x2304x1536_S4x768x1536_0_1536_0 : S4x2304x1536.Slices ![0, 1536, 0] S4x768x1536
  shapeCasts_S4x768x1536_S4x2304x8x64 : S4x768x1536.ShapeCasts S4x2304x8x64
  transposes_S4x2304x8x64_S4x8x2304x64_0_2_1_3 : S4x2304x8x64.Transposes [0, 2, 1, 3] S4x8x2304x64
  bcast_S_S4x8x2304x2304 : S_.BroadcastsInDim S4x8x2304x2304 (![] : Fin 0 → Fin S4x8x2304x2304.rank)
  transposes_S4x8x2304x64_S4x2304x8x64_0_2_1_3 : S4x8x2304x64.Transposes [0, 2, 1, 3] S4x2304x8x64
  shapeCasts_S4x2304x8x64_S4x2304x512 : S4x2304x8x64.ShapeCasts S4x2304x512
  bcast_S512_S1x1x512_2 : S512.BroadcastsInDim S1x1x512 (![2] : Fin 1 → Fin S1x1x512.rank)
  bcast_S1x1x512_S4x2304x512_0_1_2 : S1x1x512.BroadcastsInDim S4x2304x512 (![0, 1, 2] : Fin 3 → Fin S4x2304x512.rank)
  dot_S4x2304x512_S1536x512_S4x2304x1536_2_1_01_0_n_n_wf : DotDims.WF S4x2304x512 S1536x512 S4x2304x1536 [2] [1] [0, 1] [0] [] []
  dot_S4x8x2304x64_S4x8x2304x64_S4x8x2304x2304_3_3_2_2_01_01_wf : DotDims.WF S4x8x2304x64 S4x8x2304x64 S4x8x2304x2304 [3] [3] [2] [2] [0, 1] [0, 1]
  dot_S4x8x2304x2304_S4x8x2304x64_S4x8x2304x64_3_2_2_3_01_01_wf : DotDims.WF S4x8x2304x2304 S4x8x2304x64 S4x8x2304x64 [3] [2] [2] [3] [0, 1] [0, 1]
  dot_S4x2304x512_S512x512_S4x2304x512_2_1_01_0_n_n_wf : DotDims.WF S4x2304x512 S512x512 S4x2304x512 [2] [1] [0, 1] [0] [] []

variable [Facts₀]

def dot_S4x2304x512_S1536x512_S4x2304x1536_2_1_01_0_n_n : DotDims S4x2304x512 S1536x512 S4x2304x1536 where
  lhsContracting := [2]
  rhsContracting := [1]
  lhsNonContracting := [0, 1]
  rhsNonContracting := [0]
  lhsBatch := []
  rhsBatch := []
  wf := dot_S4x2304x512_S1536x512_S4x2304x1536_2_1_01_0_n_n_wf
def dot_S4x8x2304x64_S4x8x2304x64_S4x8x2304x2304_3_3_2_2_01_01 : DotDims S4x8x2304x64 S4x8x2304x64 S4x8x2304x2304 where
  lhsContracting := [3]
  rhsContracting := [3]
  lhsNonContracting := [2]
  rhsNonContracting := [2]
  lhsBatch := [0, 1]
  rhsBatch := [0, 1]
  wf := dot_S4x8x2304x64_S4x8x2304x64_S4x8x2304x2304_3_3_2_2_01_01_wf
def dot_S4x8x2304x2304_S4x8x2304x64_S4x8x2304x64_3_2_2_3_01_01 : DotDims S4x8x2304x2304 S4x8x2304x64 S4x8x2304x64 where
  lhsContracting := [3]
  rhsContracting := [2]
  lhsNonContracting := [2]
  rhsNonContracting := [3]
  lhsBatch := [0, 1]
  rhsBatch := [0, 1]
  wf := dot_S4x8x2304x2304_S4x8x2304x64_S4x8x2304x64_3_2_2_3_01_01_wf
def dot_S4x2304x512_S512x512_S4x2304x512_2_1_01_0_n_n : DotDims S4x2304x512 S512x512 S4x2304x512 where
  lhsContracting := [2]
  rhsContracting := [1]
  lhsNonContracting := [0, 1]
  rhsNonContracting := [0]
  lhsBatch := []
  rhsBatch := []
  wf := dot_S4x2304x512_S512x512_S4x2304x512_2_1_01_0_n_n_wf

class Facts : Prop extends Facts₀ where

variable [Facts]
-- ==== Proof.KernelRun.lean ====
/-
  The idealized kernel's run with its RESULT named. The program is three pipelined regions among stretches of host
  operations; the buffer contents at every boundary are a fold from the launch memory (the contents after the last
  region are `Gen.W6 m ρ c`). Every weakly fair execution terminates, nothing faulting, with the result array
  `main_v20` at what that fold holds for it and the five argument arrays as launched. What the fold holds for the
  result — region by region, stretch by stretch — is read in the modules that follow.
-/
import proofs.«101738_j19086834664148_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run, from any memory with zero counters: the result array ends at the last boundary's contents, the argument
    arrays as launched. The last thread state holds every unscoped buffer at `W6 m ρ c`; it is read against the
    final state, the result buffer among them. -/
theorem run_value : θ_run defs (onTc (τ := τ) (main (F := F))) ⟨m, fun _ => 0, ρ⟩ (fun r => ∀ c : Dev nD,
      r.2.mem ((c.tc : Thread nD τ).loc main_v20) = W6 m ρ c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v20 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)

end Cert.KernelIdeal.Gen

end
-- ==== Proof.Spec.lean ====
/-
  The mathematics of the two programs, stated once over plain arrays of extended reals (functions of an index),
  with no program imported.

  Both programs compute a softmax-free ("bilinear") attention block over x : [4, 2304, 512]:
    y      = x · w_inᵀ + b_in                                   ([9216, 1536] once the two leading axes are merged)
    q,k,v  = the three chunks of y along the TOKEN axis, each flat-reshaped to [4, 2304, 8, 64] and
             read head-major as [32, 2304, 64]                  (`heads`)
    kernel : kv[bh]  = (k[bh]ᵀ · v[bh]) · 1/8 ;  out[b,n,c] = Σ_h Σ_e (Σ_d q[8b+h,n,d] · kv[8b+h,d,e]) · w_out[c, 64h+e] + b_out[c]
    reference : out[b,n,c] = Σ_j (Σ_m ((Σ_d q[bh,n,d] · k[bh,m,d]) / 8) · v[bh,m,e]) · w_out[c,j] + b_out[c],  j = 64h+e
  The two agree on real data: (q·kᵀ)·v = q·(kᵀ·v), division by 8 is multiplication by 1/8, and a sum over
  512 = 8 · 64 positions is a sum over 8 blocks of 64.
-/
import Mathlib
import Idealize.ShloMosaic.PureOps.Ideal
import Idealize.ShloMosaic.Lib.ValueIdx

noncomputable section

namespace Cert.Spec

open Idealize.ShloMosaic Idealize.ShloMosaic.ValueIdx
open scoped BigOperators

/-- Arrays of extended reals of rank 1, 2, 3, as functions of an index. -/
abbrev Arr1 (a : ℕ) : Type := (⟨1, ![a]⟩ : Shape).Idx → EReal
abbrev Arr2 (a b : ℕ) : Type := (⟨2, ![a, b]⟩ : Shape).Idx → EReal
abbrev Arr3 (a b c : ℕ) : Type := (⟨3, ![a, b, c]⟩ : Shape).Idx → EReal

/-- The f32 words of 1/8 (the kernel's scale) and of 8 (the reference's divisor). -/
abbrev eighth : EReal := Ideal.ofBits .f32 0x3E000000#32
abbrev eight : EReal := Ideal.ofBits .f32 0x41000000#32

/-- x with its two leading axes merged: row r of [9216, 512] is token r % 2304 of batch r / 2304. -/
def rowsAt (x : Arr3 4 2304 512) (r : Fin 9216) (k : Fin 512) : EReal :=
  x (ix3 ⟨r.val / 2304, by have := r.isLt; omega⟩ ⟨r.val % 2304, Nat.mod_lt _ (by norm_num)⟩ k)
def rows (x : Arr3 4 2304 512) : Arr2 9216 512 := fun i => rowsAt x (i 0) (i 1)

/-- The input projection: y[r, f] = Σ_k X[r, k] · w[f, k] + b[f]. -/
def linearAt (X : Arr2 9216 512) (w : Arr2 1536 512) (bi : Arr1 1536) (r : Fin 9216) (f : Fin 1536) : EReal :=
  (∑ k : Fin 512, X (ix2 r k) * w (ix2 f k)) + bi (ix1 f)
def linear (X : Arr2 9216 512) (w : Arr2 1536 512) (bi : Arr1 1536) : Arr2 9216 1536 := fun i => linearAt X w bi (i 0) (i 1)

/-- Chunk s (0: q, 1: k, 2: v) of the token axis of y, flat-reshaped [768, 1536] → [2304, 8, 64] within each batch
    and read head-major: entry (8b + h, n, d) is y at row 2304·b + 768·s + p / 1536 and column p % 1536, where
    p = 512·n + 64·h + d is the entry's position inside the chunk of batch b. -/
def headsAt (Y : Arr2 9216 1536) (s : Fin 3) (bh : Fin 32) (n : Fin 2304) (d : Fin 64) : EReal :=
  Y (ix2 ⟨2304 * (bh.val / 8) + 768 * s.val + (512 * n.val + 64 * (bh.val % 8) + d.val) / 1536,
        by have := bh.isLt; have := n.isLt; have := d.isLt; have := s.isLt; omega⟩
      ⟨(512 * n.val + 64 * (bh.val % 8) + d.val) % 1536, Nat.mod_lt _ (by norm_num)⟩)
def heads (Y : Arr2 9216 1536) (s : Fin 3) : Arr3 32 2304 64 := fun i => headsAt Y s (i 0) (i 1) (i 2)

/-- kv[bh, d, e] = (Σ_m k[bh, m, d] · v[bh, m, e]) · 1/8. -/
def kvAt (K V : Arr3 32 2304 64) (bh : Fin 32) (d e : Fin 64) : EReal :=
  (∑ m : Fin 2304, K (ix3 bh m d) * V (ix3 bh m e)) * eighth
def kvArr (K V : Arr3 32 2304 64) : Arr3 32 64 64 := fun i => kvAt K V (i 0) (i 1) (i 2)

/-- The output weight cut into heads: entry (h, c, e) is w_out[c, 64·h + e]. -/
def woutHeadsAt (wout : Arr2 512 512) (h : Fin 8) (c : Fin 512) (e : Fin 64) : EReal :=
  wout (ix2 c ⟨64 * h.val + e.val, by have := h.isLt; have := e.isLt; omega⟩)
def woutHeads (wout : Arr2 512 512) : Arr3 8 512 64 := fun i => woutHeadsAt wout (i 0) (i 1) (i 2)

/-- The kernel's last stage: out[b, n, c] = Σ_h Σ_e (Σ_d q[8b+h, n, d] · kv[8b+h, d, e]) · wh[h, c, e] + b_out[c]. -/
def fusedAt (Q : Arr3 32 2304 64) (KV : Arr3 32 64 64) (WH : Arr3 8 512 64) (bo : Arr1 512)
    (b : Fin 4) (n : Fin 2304) (c : Fin 512) : EReal :=
  (∑ h : Fin 8, ∑ e : Fin 64,
      (∑ d : Fin 64, Q (ix3 ⟨8 * b.val + h.val, by have := b.isLt; have := h.isLt; omega⟩ n d)
          * KV (ix3 ⟨8 * b.val + h.val, by have := b.isLt; have := h.isLt; omega⟩ d e))
        * WH (ix3 h c e))
    + bo (ix1 c)
def fused (Q : Arr3 32 2304 64) (KV : Arr3 32 64 64) (WH : Arr3 8 512 64) (bo : Arr1 512) : Arr3 4 2304 512 :=
  fun i => fusedAt Q KV WH bo (i 0) (i 1) (i 2)

/-- The reference's attention and output projection over the same q, k, v:
    out[b, n, c] = Σ_j (Σ_m ((Σ_d q[bh, n, d] · k[bh, m, d]) / 8) · v[bh, m, e]) · w_out[c, j] + b_out[c],
    with h = j / 64, e = j % 64, bh = 8b + h. -/
def refFormAt (Q K V : Arr3 32 2304 64) (wout : Arr2 512 512) (bo : Arr1 512)
    (b : Fin 4) (n : Fin 2304) (c : Fin 512) : EReal :=
  (∑ j : Fin 512,
      (∑ m : Fin 2304,
          Ideal.div (∑ d : Fin 64,
              Q (ix3 ⟨8 * b.val + j.val / 64, by have := b.isLt; have := j.isLt; omega⟩ n d)
                * K (ix3 ⟨8 * b.val + j.val / 64, by have := b.isLt; have := j.isLt; omega⟩ m d)) eight
            * V (ix3 ⟨8 * b.val + j.val / 64, by have := b.isLt; have := j.isLt; omega⟩ m
                ⟨j.val % 64, Nat.mod_lt _ (by norm_num)⟩))
        * wout (ix2 c j))
    + bo (ix1 c)
def refForm (Q K V : Arr3 32 2304 64) (wout : Arr2 512 512) (bo : Arr1 512) : Arr3 4 2304 512 :=
  fun i => refFormAt Q K V wout bo (i 0) (i 1) (i 2)

/-- What the kernel computes, as one function of the five argument arrays. -/
def kernelOut (x : Arr3 4 2304 512) (w : Arr2 1536 512) (bi : Arr1 1536) (wout : Arr2 512 512) (bo : Arr1 512) : Arr3 4 2304 512 :=
  fused (heads (linear (rows x) w bi) 0) (kvArr (heads (linear (rows x) w bi) 1) (heads (linear (rows x) w bi) 2))
    (woutHeads wout) bo

/-- What the reference computes, as one function of the five argument arrays. -/
def refOut (x : Arr3 4 2304 512) (w : Arr2 1536 512) (bi : Arr1 1536) (wout : Arr2 512 512) (bo : Arr1 512) : Arr3 4 2304 512 :=
  refForm (heads (linear (rows x) w bi) 0) (heads (linear (rows x) w bi) 1) (heads (linear (rows x) w bi) 2) wout bo

end Cert.Spec

end
-- ==== Proof.Region0.lean ====
/-
  The value of the first pallas_call region (the input projection) as a whole-array function.

  The region's grid has 18 points. At point t the body reads rows 512 t … 512 t + 511 of the [9216, 512]
  activations, the whole [1536, 512] weight and the whole [1536] bias, and writes rows 512 t … 512 t + 511 of
  the [9216, 1536] result. Its one stored value is, at (p, q) of the block,
      Σ_k x[p, k] · w[q, k] + b[q]:
  the matrix product into a zero accumulator is the plain finite sum over the contracted axis, the changes of
  float format are the identity on extended reals, the bias is cast [1536] → [1, 1536] and broadcast down the rows.
  So block t of the result is rows 512 t … of `Cert.Spec.linear X w bi`, and since the 18 row blocks tile the 9216
  rows, the array the region leaves IS `Cert.Spec.linear X w bi`.
-/
import proofs.«101738_j19086834664148_2_alg».proof.Proof.Gen.KernelIdeal.Frame
import proofs.«101738_j19086834664148_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region0

open Idealize.ShloMosaic Idealize.ShloMosaic.TcCoe Idealize.SL.Sem Cert.KernelIdeal
open Idealize.ShloMosaic.ValueIdx
open scoped BigOperators

/-! ## The body's stored value at an index of the block -/

/-- The dimension numbers of the body's matrix product: [512, 512] × [1536, 512] → [512, 1536], contracting the
    second axis of both operands. -/
abbrev D0 := dot_S512x512_S1536x512_S512x1536_1_1_0_0_n_n

/-- The left operand is read at the result's row … -/
theorem lhs0 (i : S512x1536.Idx) (q : D0.contr.Idx) : (D0.lhsIdx i q 0).val = (i 0).val := by
  unfold DotDims.lhsIdx
  rw [dif_neg (show ¬(0 : Fin S512x512.rank) ∈ D0.lhsBatch by decide), dif_pos (show (0 : Fin S512x512.rank) ∈ D0.lhsNonContracting by decide)]
  rfl
/-- … and the contraction index; -/
theorem lhs1 (i : S512x1536.Idx) (q : D0.contr.Idx) : (D0.lhsIdx i q 1).val = (q ⟨0, by decide⟩).val :=
  D0.lhsIdx_val_of_single rfl i q
/-- the right operand at the result's column … -/
theorem rhs0 (i : S512x1536.Idx) (q : D0.contr.Idx) : (D0.rhsIdx i q 0).val = (i 1).val := by
  unfold DotDims.rhsIdx
  rw [dif_neg (show ¬(0 : Fin S1536x512.rank) ∈ D0.rhsBatch by decide), dif_pos (show (0 : Fin S1536x512.rank) ∈ D0.rhsNonContracting by decide)]
  rfl
/-- … and the contraction index. -/
theorem rhs1 (i : S512x1536.Idx) (q : D0.contr.Idx) : (D0.rhsIdx i q 1).val = (q ⟨0, by decide⟩).val :=
  D0.rhsIdx_val_of_single rfl i q

/-- The matrix product into the zero accumulator, at (p, q): Σ_k a[p, k] · b[q, k]. -/
theorem mm_apply (a : FVec Ideal S512x512 .bf16) (b : FVec Ideal S1536x512 .bf16) (p : Fin 512) (q : Fin 1536) :
    matmul D0 none a b (constant S512x1536 .f32 0x00000000#32) (ix2 p q) = ∑ k : Fin 512, a (ix2 p k) * b (ix2 q k) := by
  refine (Ideal.matmul_constant_zero_apply D0 none a b (ix2 p q)).trans ?_
  rw [← Equiv.sum_comp (contrEquiv1 D0 512 rfl rfl).symm]
  refine Finset.sum_congr rfl fun k _ => ?_
  have hk := contrEquiv1_symm_val D0 512 rfl rfl k
  have el : D0.lhsIdx (ix2 p q) ((contrEquiv1 D0 512 rfl rfl).symm k) = ix2 p k := funext fun a => Fin.ext (by
    match a with
    | ⟨0, _⟩ => exact lhs0 _ _
    | ⟨1, _⟩ => exact (lhs1 _ _).trans hk)
  have er : D0.rhsIdx (ix2 p q) ((contrEquiv1 D0 512 rfl rfl).symm k) = ix2 q k := funext fun a => Fin.ext (by
    match a with
    | ⟨0, _⟩ => exact rhs0 _ _
    | ⟨1, _⟩ => exact (rhs1 _ _).trans hk)
  rw [el, er]

/-- The body's stored value at (p, q) of the block: Σ_k x0[p, k] · x1[q, k] + x2[q]. -/
theorem pay_apply (x0 : Vec Ideal S512x512 .f32) (x1 : Vec Ideal S1536x512 .bf16) (x2 : Vec Ideal S1536 .f32) (p : Fin 512) (q : Fin 1536) :
    Gen.k0_pay1 (F := Ideal) x0 x1 x2 (ix2 p q) = (∑ k : Fin 512, x0 (ix2 p k) * x1 (ix2 q k)) + x2 (ix1 q) := by
  unfold Gen.k0_pay1
  simp only [shapeCast_self]
  show (matmul (F := Ideal) D0 none (truncf (F := Ideal) .bf16 x0 _) x1 (constant (F := Ideal) S512x1536 .f32 0x00000000#32) (ix2 p q) : EReal)
      + (broadcastTo S512x1536 (shapeCast S1x1536 x2 _) _ (ix2 p q) : EReal) = _
  refine congrArg₂ (· + ·) ((mm_apply _ _ p q).trans ?_) ?_
  · rfl
  · refine (broadcastTo_1b_ab_apply _ _ p q).trans ?_
    exact shapeCast_a_1a_apply x2 _ 0 q

/-- When the three loaded blocks are rows `r p` of X, all of w and all of bi, the stored value at (p, q) is the
    input projection at (r p, q). -/
theorem point_eq (X : Cert.Spec.Arr2 9216 512) (w : Cert.Spec.Arr2 1536 512) (bi : Cert.Spec.Arr1 1536)
    (x0 : Vec Ideal S512x512 .f32) (x1 : Vec Ideal S1536x512 .bf16) (x2 : Vec Ideal S1536 .f32)
    (r : Fin 512 → Fin 9216)
    (h0 : ∀ (p : Fin 512) (k : Fin 512), x0 (ix2 p k) = X (ix2 (r p) k))
    (h1 : ∀ (q : Fin 1536) (k : Fin 512), x1 (ix2 q k) = w (ix2 q k))
    (h2 : ∀ q : Fin 1536, x2 (ix1 q) = bi (ix1 q)) (p : Fin 512) (q : Fin 1536) :
    Gen.k0_pay1 (F := Ideal) x0 x1 x2 (ix2 p q) = Cert.Spec.linear X w bi (ix2 (r p) q) := by
  rw [pay_apply]
  show _ = Cert.Spec.linearAt X w bi (r p) q
  unfold Cert.Spec.linearAt
  rw [h2]
  congr 1
  exact Finset.sum_congr rfl fun k _ => by rw [h0, h1]

/-! ## From blocks to the array -/

/-- Two functions of a rank-2 index agree when they agree at every pair of coordinates. -/
theorem ext_ix2 {n0 n1 : ℕ} {α : Type} {f g : (⟨2, ![n0, n1]⟩ : Shape).Idx → α}
    (h : ∀ (p : Fin n0) (q : Fin n1), f (ix2 p q) = g (ix2 p q)) : f = g :=
  funext fun j => by rw [eq_ix2 j]; exact h _ _

theorem hz : (![0, 0] : Fin 2 → Nat) = fun _ => 0 := funext fun a => by fin_cases a <;> rfl
theorem hz1 : (![0] : Fin 1 → Nat) = fun _ => 0 := funext fun a => by fin_cases a <;> rfl

/-- The index maps over the 18 grid points: the activations' and the result's block index is (t, 0); the weight's
    and the bias's is zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

theorem t_lt (t : Fin cfg0.N) : t.val < 18 := lt_of_lt_of_eq t.isLt Gen.N_0

/-- Row p of block t is row 512 t + p of the array. -/
def row (t : Fin cfg0.N) (p : Fin 512) : Fin 9216 := ⟨512 * t.val + p.val, by have := t_lt t; have := p.isLt; omega⟩

variable (V : (c : Dev nD) → (b : Ref sig .tc) → Buf (Elt Ideal) ((c : Thread nD τ).loc b)) (c : Dev nD)

/-- The activations' block at point t is rows 512 t … 512 t + 511 of the array. -/
theorem read0 (t : Fin cfg0.N) (p : Fin 512) (k : Fin 512) :
    (Gen.iblk0 (F := Ideal) V c 0 t : Vec Ideal S512x512 .f32) (ix2 p k) = (V c main_v2 : S9216x512.Idx → EReal) (ix2 (row t p) k) := by
  obtain ⟨e0, e1, -⟩ := idx_facts t
  unfold Gen.iblk0
  rw [View.read_apply]
  show V c main_v2 (((cfg0.win 0).blk t).view.emb (ix2 p k)) = V c main_v2 _
  refine congrArg _ (funext fun a => Fin.ext ?_)
  match a with
  | ⟨0, _⟩ => show win0_0.index t (0 : Fin 2) * 512 + 1 * p.val = 512 * t.val + p.val; omega
  | ⟨1, _⟩ => show win0_0.index t (1 : Fin 2) * 512 + 1 * k.val = k.val; omega

/-- The weight's block at every point is the whole weight. -/
theorem read1 (t : Fin cfg0.N) (q : Fin 1536) (k : Fin 512) :
    (Gen.iblk0 (F := Ideal) V c 1 t : Vec Ideal S1536x512 .bf16) (ix2 q k) = (V c main_v0 : S1536x512.Idx → EReal) (ix2 q k) := by
  obtain ⟨-, -, e2, e3, -⟩ := idx_facts t
  unfold Gen.iblk0
  rw [View.read_apply]
  show V c main_v0 (((cfg0.win 1).blk t).view.emb (ix2 q k)) = V c main_v0 _
  refine congrArg _ (funext fun a => Fin.ext ?_)
  match a with
  | ⟨0, _⟩ => show win0_1.index t (0 : Fin 2) * 1536 + 1 * q.val = q.val; omega
  | ⟨1, _⟩ => show win0_1.index t (1 : Fin 2) * 512 + 1 * k.val = k.val; omega

/-- The bias's block at every point is the whole bias. -/
theorem read2 (t : Fin cfg0.N) (q : Fin 1536) :
    (Gen.iblk0 (F := Ideal) V c 2 t : Vec Ideal S1536 .f32) (ix1 q) = (V c main_arg2 : S1536.Idx → EReal) (ix1 q) := by
  obtain ⟨-, -, -, -, e4, -⟩ := idx_facts t
  unfold Gen.iblk0
  rw [View.read_apply]
  show V c main_arg2 (((cfg0.win 2).blk t).view.emb (ix1 q)) = V c main_arg2 _
  refine congrArg _ (funext fun a => Fin.ext ?_)
  match a with
  | ⟨0, _⟩ => show win0_2.index t (0 : Fin 1) * 1536 + 1 * q.val = q.val; omega

/-- What point t writes back is block t — rows 512 t … 512 t + 511 — of the input projection. -/
theorem flushed_eq (X : Cert.Spec.Arr2 9216 512) (w : Cert.Spec.Arr2 1536 512) (bi : Cert.Spec.Arr1 1536)
    (hX : (V c main_v2 : S9216x512.Idx → EReal) = X) (hw : (V c main_v0 : S1536x512.Idx → EReal) = w) (hb : (V c main_arg2 : S1536.Idx → EReal) = bi)
    (t : Fin cfg0.N) :
    (Gen.dat0 (F := Ideal) V c).flushed 3 t = ((cfg0.win 3).blk t).view.read (Elt Ideal) (Cert.Spec.linear X w bi) := by
  show (cfg0.win 3).cut (grid0.coords t) ((Gen.dat0 V c).after 3 t) = _
  rw [Gen.after0_3]
  unfold Gen.out0_3
  rw [View.canon_unit_zero hz]
  simp only [View.ld_unit_zero (S := S512x512) hz, View.ld_unit_zero (S := S1536x512) hz, View.ld_unit_zero (S := S1536) hz1]
  refine ext_ix2 (n0 := 512) (n1 := 1536) (fun p q => ?_)
  show Gen.k0_pay1 (F := Ideal) (Gen.iblk0 V c 0 t) (Gen.iblk0 V c 1 t) (Gen.iblk0 V c 2 t) (ix2 p q)
    = Cert.Spec.linear X w bi (((cfg0.win 3).blk t).view.emb (ix2 p q))
  obtain ⟨-, -, -, -, -, e5, e6⟩ := idx_facts t
  have e : ((cfg0.win 3).blk t).view.emb (ix2 p q) = ix2 (row t p) q := by
    funext a; apply Fin.ext
    match a with
    | ⟨0, _⟩ => show win0_3.index t (0 : Fin 2) * 512 + 1 * p.val = 512 * t.val + p.val; omega
    | ⟨1, _⟩ => show win0_3.index t (1 : Fin 2) * 1536 + 1 * q.val = q.val; omega
  rw [e]
  exact point_eq X w bi (Gen.iblk0 V c 0 t) (Gen.iblk0 V c 1 t) (Gen.iblk0 V c 2 t) (row t)
    (fun p k => (read0 V c t p k).trans (congrFun hX _))
    (fun q k => (read1 V c t q k).trans (congrFun hw _))
    (fun q => (read2 V c t q).trans (congrFun hb _)) p q

/-- Every index of the result lies in some point's block: row r is in block r / 512. -/
theorem cover (i : S9216x1536.Idx) :
    ∃ t : Fin cfg0.N, (cfg0.win 3).flush t = true ∧ i ∈ ((cfg0.win 3).blk t).view.set := by
  have hi0 : (i 0).val < 9216 := (i 0).isLt
  have hi1 : (i 1).val < 1536 := (i 1).isLt
  obtain ⟨t, ht⟩ : ∃ t : Fin cfg0.N, t.val = (i 0).val / 512 :=
    ⟨⟨(i 0).val / 512, lt_of_lt_of_eq (by omega) Gen.N_0.symm⟩, rfl⟩
  obtain ⟨-, -, -, -, -, e5, e6⟩ := idx_facts t
  refine ⟨t, Gen.flush0_3 t, ?_⟩
  show i ∈ ((View.whole main_v3).slice (win0_3.rect t)).set
  rw [View.set_slice_whole, Rect.mem_set_unit]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 1536 ≤ (i 1).val ∧ (i 1).val < win0_3.index t (1 : Fin 2) * 1536 + 1536
    omega

/-- The array the region leaves is the input projection of the arrays it found. -/
theorem value (V : (c : Dev nD) → (b : Ref sig .tc) → Buf (Elt Ideal) ((c : Thread nD τ).loc b)) (c : Dev nD)
    (X : Cert.Spec.Arr2 9216 512) (w : Cert.Spec.Arr2 1536 512) (bi : Cert.Spec.Arr1 1536)
    (hX : (V c main_v2 : S9216x512.Idx → EReal) = X) (hw : (V c main_v0 : S1536x512.Idx → EReal) = w) (hb : (V c main_arg2 : S1536.Idx → EReal) = bi) :
    ((Gen.dat0 (F := Ideal) V c).arrAt 3 cfg0.N : S9216x1536.Idx → EReal) = Cert.Spec.linear X w bi :=
  (Gen.dat0 (F := Ideal) V c).arrAt_eq_of_cover 3 (Cert.Spec.linear X w bi) (fun t _ => flushed_eq V c X w bi hX hw hb t) cover

end Cert.KernelIdeal.Region0

end
-- ==== Proof.Region1.lean ====
/-
  Region 1: kv[bh] = (k[bh]ᵀ · v[bh]) · 1/8, one head per grid point. Point t reads the [1, 2304, 64] blocks
  k[t, :, :] and v[t, :, :] and writes the [1, 64, 64] block kv[t, :, :]; the 32 blocks tile the output array, so
  after the region the array is `kvArr k v` of the two input arrays as the region found them.
-/
import proofs.«101738_j19086834664148_2_alg».proof.Proof.Gen.KernelIdeal.Frame
import proofs.«101738_j19086834664148_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Region1

open Idealize.ShloMosaic Idealize.ShloMosaic.TcCoe Idealize.SL.Sem Idealize.ShloMosaic.ValueIdx Cert.KernelIdeal
open Idealize.ShloMosaic.Pipeline (Dat)
open Cert.KernelIdeal.Facts₀ Cert.KernelIdeal.Facts

/-- The contraction of the body's product: axis 0 of both operands. -/
abbrev D1 := dot_S2304x64_S2304x64_S64x64_0_0_1_1_n_n

theorem lhs0 (i : S64x64.Idx) (q : D1.contr.Idx) : (D1.lhsIdx i q 0).val = (q ⟨0, by decide⟩).val :=
  D1.lhsIdx_val_of_single rfl i q
theorem lhs1 (i : S64x64.Idx) (q : D1.contr.Idx) : (D1.lhsIdx i q 1).val = (i 0).val := by
  unfold DotDims.lhsIdx
  rw [dif_neg (show ¬(1 : Fin S2304x64.rank) ∈ D1.lhsBatch by decide), dif_pos (show (1 : Fin S2304x64.rank) ∈ D1.lhsNonContracting by decide)]
  rfl
theorem rhs0 (i : S64x64.Idx) (q : D1.contr.Idx) : (D1.rhsIdx i q 0).val = (q ⟨0, by decide⟩).val :=
  D1.rhsIdx_val_of_single rfl i q
theorem rhs1 (i : S64x64.Idx) (q : D1.contr.Idx) : (D1.rhsIdx i q 1).val = (i 1).val := by
  unfold DotDims.rhsIdx
  rw [dif_neg (show ¬(1 : Fin S2304x64.rank) ∈ D1.rhsBatch by decide), dif_pos (show (1 : Fin S2304x64.rank) ∈ D1.rhsNonContracting by decide)]
  rfl

/-- The product into the zero accumulator, at (d, e): Σ_n l[n, d] · r[n, e]. -/
theorem matmul_kv (l r : FVec Ideal S2304x64 .bf16) (d e : Fin 64) :
    matmul D1 none l r (constant S64x64 .f32 0x00000000#32) (ix2 d e) = ∑ n : Fin 2304, l (ix2 n d) * r (ix2 n e) := by
  simp only [matmul]
  rw [Ideal.matmul_constant_zero_apply, ← Equiv.sum_comp (contrEquiv1 D1 2304 rfl rfl).symm]
  refine Finset.sum_congr rfl fun k _ => ?_
  have hk := contrEquiv1_symm_val D1 2304 rfl rfl k
  have el : D1.lhsIdx (ix2 d e) ((contrEquiv1 D1 2304 rfl rfl).symm k) = ix2 k d := funext fun a => Fin.ext (by
    match a with
    | ⟨0, _⟩ => exact (lhs0 _ _).trans hk
    | ⟨1, _⟩ => exact lhs1 _ _)
  have er : D1.rhsIdx (ix2 d e) ((contrEquiv1 D1 2304 rfl rfl).symm k) = ix2 k e := funext fun a => Fin.ext (by
    match a with
    | ⟨0, _⟩ => exact (rhs0 _ _).trans hk
    | ⟨1, _⟩ => exact rhs1 _ _)
  rw [el, er]

/-- The body's stored value at (u, d, e): (Σ_n k[0, n, d] · v[0, n, e]) · 1/8. -/
theorem pay_apply (x0 x1 : Vec Ideal S1x2304x64 .bf16) (u : Fin 1) (d e : Fin 64) :
    Gen.k1_pay1 (F := Ideal) x0 x1 (ix3 u d e)
      = (∑ n : Fin 2304, x0 (ix3 (0 : Fin 1) n d) * x1 (ix3 (0 : Fin 1) n e)) * Cert.Spec.eighth := by
  unfold Gen.k1_pay1
  refine (shapeCast_ab_1ab_apply _ _ u d e).trans ?_
  show matmul (F := Ideal) D1 none (shapeCast S2304x64 x0 shapeCasts_S1x2304x64_S2304x64 : FVec Ideal S2304x64 .bf16)
      (shapeCast S2304x64 x1 shapeCasts_S1x2304x64_S2304x64 : FVec Ideal S2304x64 .bf16)
      (constant (F := Ideal) S64x64 .f32 0x00000000#32) (ix2 d e) * Cert.Spec.eighth = _
  rw [matmul_kv]
  refine congrArg (· * Cert.Spec.eighth) (Finset.sum_congr rfl fun n _ => ?_)
  rw [shapeCast_1ab_ab_apply, shapeCast_1ab_ab_apply]

theorem hz3 : (![0, 0, 0] : Fin 3 → Nat) = fun _ => 0 := funext fun a => by fin_cases a <;> rfl

/-- The index maps over the grid: point t's blocks are k[t], v[t] and kv[t]. -/
theorem idx_facts : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0 :=
  (by decide +kernel : ∀ t : Fin grid1.N, _)

variable (V : (c : Dev nD) → (b : Ref sig .tc) → Buf (Elt Ideal) ((c : Thread nD τ).loc b)) (c : Dev nD)

/-- Point t's block of the first input, read at (0, n, d), is k[t, n, d]. -/
theorem blk0_read (K : Cert.Spec.Arr3 32 2304 64) (hK : (V c main_v13 : S32x2304x64.Idx → EReal) = K)
    (t : Fin cfg1.N) (ht : t.val < 32) (n : Fin 2304) (d : Fin 64) :
    Gen.iblk1 V c 0 t (ix3 (0 : Fin 1) n d) = K (ix3 ⟨t.val, ht⟩ n d) := by
  obtain ⟨e0, e1, e2, -⟩ := idx_facts t
  show (V c main_v13 : S32x2304x64.Idx → EReal) (((cfg1.win 0).blk t).view.emb (ix3 (0 : Fin 1) n d)) = _
  rw [hK]
  refine congrArg K (funext fun a => Fin.ext ?_)
  match a with
  | ⟨0, _⟩ => show win1_0.index t (0 : Fin 3) * 1 + 1 * 0 = t.val; omega
  | ⟨1, _⟩ => show win1_0.index t (1 : Fin 3) * 2304 + 1 * n.val = n.val; omega
  | ⟨2, _⟩ => show win1_0.index t (2 : Fin 3) * 64 + 1 * d.val = d.val; omega

/-- Point t's block of the second input, read at (0, n, e), is v[t, n, e]. -/
theorem blk1_read (Vv : Cert.Spec.Arr3 32 2304 64) (hV : (V c main_v16 : S32x2304x64.Idx → EReal) = Vv)
    (t : Fin cfg1.N) (ht : t.val < 32) (n : Fin 2304) (e : Fin 64) :
    Gen.iblk1 V c 1 t (ix3 (0 : Fin 1) n e) = Vv (ix3 ⟨t.val, ht⟩ n e) := by
  obtain ⟨-, -, -, e0, e1, e2, -⟩ := idx_facts t
  show (V c main_v16 : S32x2304x64.Idx → EReal) (((cfg1.win 1).blk t).view.emb (ix3 (0 : Fin 1) n e)) = _
  rw [hV]
  refine congrArg Vv (funext fun a => Fin.ext ?_)
  match a with
  | ⟨0, _⟩ => show win1_1.index t (0 : Fin 3) * 1 + 1 * 0 = t.val; omega
  | ⟨1, _⟩ => show win1_1.index t (1 : Fin 3) * 2304 + 1 * n.val = n.val; omega
  | ⟨2, _⟩ => show win1_1.index t (2 : Fin 3) * 64 + 1 * e.val = e.val; omega

/-- What point t writes back is block t of `kvArr k v`. -/
theorem flushed_eq (K Vv : Cert.Spec.Arr3 32 2304 64)
    (hK : (V c main_v13 : S32x2304x64.Idx → EReal) = K) (hV : (V c main_v16 : S32x2304x64.Idx → EReal) = Vv) (t : Fin cfg1.N) :
    (Gen.dat1 (F := Ideal) V c).flushed 2 t = ((cfg1.win 2).blk t).view.read (Elt Ideal) (Cert.Spec.kvArr K Vv) := by
  have ht : t.val < 32 := lt_of_lt_of_eq t.isLt Gen.N_1
  show (cfg1.win 2).cut (grid1.coords t) ((Gen.dat1 (F := Ideal) V c).after 2 t) = _
  rw [Gen.after1_2]
  unfold Gen.out1_2
  rw [View.canon_unit_zero hz3]
  simp only [View.ld_unit_zero (S := S1x2304x64) hz3]
  funext j
  obtain ⟨u, d, e, rfl⟩ : ∃ (u : Fin 1) (d e : Fin 64), j = ix3 u d e := ⟨j 0, j 1, j 2, eq_ix3 j⟩
  show Gen.k1_pay1 (F := Ideal) (Gen.iblk1 V c 0 t) (Gen.iblk1 V c 1 t) (ix3 u d e)
      = Cert.Spec.kvArr K Vv (((cfg1.win 2).blk t).view.emb (ix3 u d e))
  refine (pay_apply (Gen.iblk1 V c 0 t) (Gen.iblk1 V c 1 t) u d e).trans ?_
  obtain ⟨-, -, -, -, -, -, e0, e1, e2⟩ := idx_facts t
  have hemb : ((cfg1.win 2).blk t).view.emb (ix3 u d e) = ix3 (⟨t.val, ht⟩ : Fin 32) d e := by
    funext a; apply Fin.ext
    match a with
    | ⟨0, _⟩ => show win1_2.index t (0 : Fin 3) * 1 + 1 * u.val = t.val; omega
    | ⟨1, _⟩ => show win1_2.index t (1 : Fin 3) * 64 + 1 * d.val = d.val; omega
    | ⟨2, _⟩ => show win1_2.index t (2 : Fin 3) * 64 + 1 * e.val = e.val; omega
  rw [hemb]
  show _ = Cert.Spec.kvAt K Vv ⟨t.val, ht⟩ d e
  unfold Cert.Spec.kvAt
  refine congrArg (· * Cert.Spec.eighth) (Finset.sum_congr rfl fun n _ => ?_)
  rw [blk0_read V c K hK t ht n d, blk1_read V c Vv hV t ht n e]

/-- An index of the output array is in point t's block iff each coordinate is in the block's range on its axis. -/
theorem mem_blk (t : Fin cfg1.N) (i : S32x64x64.Idx) :
    i ∈ ((cfg1.win 2).blk t).view.set ↔ ∀ a : Fin 3, win1_2.index t a * S1x64x64.size a ≤ (i a).val ∧ (i a).val < win1_2.index t a * S1x64x64.size a + S1x64x64.size a := by
  show i ∈ ((View.whole main_v17).slice (win1_2.rect t)).set ↔ _
  rw [View.set_slice_whole, Rect.mem_set_unit]
  exact Iff.rfl

/-- Every index of the output array lies in the block of the point numbered by its head. -/
theorem cover (i : S32x64x64.Idx) : ∃ t : Fin cfg1.N, (cfg1.win 2).flush t = true ∧ i ∈ ((cfg1.win 2).blk t).view.set := by
  have hi0 : (i 0).val < 32 := (i 0).isLt
  have hi1 : (i 1).val < 64 := (i 1).isLt
  have hi2 : (i 2).val < 64 := (i 2).isLt
  let t : Fin cfg1.N := ⟨(i 0).val, lt_of_lt_of_eq hi0 Gen.N_1.symm⟩
  obtain ⟨-, -, -, -, -, -, e0, e1, e2⟩ := idx_facts t
  refine ⟨t, Gen.flush1_2 t, ?_⟩
  rw [mem_blk]
  intro a
  match a with
  | ⟨0, _⟩ => show win1_2.index t (0 : Fin 3) * 1 ≤ (i 0).val ∧ (i 0).val < win1_2.index t (0 : Fin 3) * 1 + 1; have : t.val = (i 0).val := rfl; omega
  | ⟨1, _⟩ => show win1_2.index t (1 : Fin 3) * 64 ≤ (i 1).val ∧ (i 1).val < win1_2.index t (1 : Fin 3) * 64 + 64; omega
  | ⟨2, _⟩ => show win1_2.index t (2 : Fin 3) * 64 ≤ (i 2).val ∧ (i 2).val < win1_2.index t (2 : Fin 3) * 64 + 64; omega

/-- The array region 1 leaves: `kvArr k v` of the two input arrays as the region finds them. -/
theorem value (K Vv : Cert.Spec.Arr3 32 2304 64)
    (hK : (V c main_v13 : S32x2304x64.Idx → EReal) = K) (hV : (V c main_v16 : S32x2304x64.Idx → EReal) = Vv) :
    ((Gen.dat1 (F := Ideal) V c).arrAt 2 cfg1.N : S32x64x64.Idx → EReal) = Cert.Spec.kvArr K Vv :=
  (Gen.dat1 (F := Ideal) V c).arrAt_eq_of_cover 2 (Cert.Spec.kvArr K Vv) (fun t _ => flushed_eq V c K Vv hK hV t) cover

end Cert.KernelIdeal.Region1

end
-- ==== Proof.LibBlockSums.lean ====
import Mathlib

/-! # Sums over a range cut into equal blocks, and running sums

Two regroupings of a finite sum in a commutative additive monoid (the extended reals among them: no
finiteness is asked):

* `sum_blocks`: a sum over `a · b` consecutive positions is the sum, over the `a` blocks of `b` consecutive
  positions, of each block's sum: `∑ n < a, ∑ q < b, f (b · n + q) = ∑ j < a · b, f j`. The literal forms
  `8 · 512 = 4096` and `4 · 1024 = 4096` state it over `Fin 4096`.
* `foldl_add_eq_sum` / `runningSum_eq_sum`: an accumulator that starts at `0` and adds `g n` at step `n`
  holds, after all `N` steps, `∑ n < N, g n`. -/

open scoped BigOperators

namespace Cert.BlockSums

variable {M : Type*} [AddCommMonoid M]

/-- Position `b · n + q` of block `n`, offset `q`, lies below `a · b`. -/
theorem block_pos_lt {a b : ℕ} (n : Fin a) (q : Fin b) : b * n.val + q.val < a * b := by
  have hn := n.isLt
  have hq := q.isLt
  calc b * n.val + q.val < b * n.val + b := by omega
    _ = b * (n.val + 1) := by ring
    _ ≤ b * a := Nat.mul_le_mul_left b hn
    _ = a * b := Nat.mul_comm b a

/-- A sum over `a · b` positions, block by block. -/
theorem sum_blocks (a b : ℕ) (f : ℕ → M) :
    ∑ n : Fin a, ∑ q : Fin b, f (b * n.val + q.val) = ∑ j : Fin (a * b), f j.val := by
  rw [← Fintype.sum_prod_type', ← Equiv.sum_comp (finProdFinEquiv (m := a) (n := b))]
  refine Finset.sum_congr rfl fun p _ => ?_
  show f (b * p.1.val + p.2.val) = f (p.2.val + b * p.1.val)
  rw [Nat.add_comm]

/-- The same over `Fin N` with `N = a · b`, for a function of the position as an element of `Fin N`. -/
theorem sum_blocks_fin {N : ℕ} (a b : ℕ) (h : a * b = N) (f : Fin N → M) :
    ∑ n : Fin a, ∑ q : Fin b, f ⟨b * n.val + q.val, h ▸ block_pos_lt n q⟩ = ∑ j : Fin N, f j := by
  subst h
  have key := sum_blocks a b (fun j => if hj : j < a * b then f ⟨j, hj⟩ else 0)
  simp only [block_pos_lt, dif_pos, Fin.is_lt, Fin.eta] at key
  exact key

/-- Eight blocks of 512 positions make up 4096 positions. -/
theorem sum_blocks_8_512 (f : Fin 4096 → M) :
    ∑ n : Fin 8, ∑ q : Fin 512, f ⟨512 * n.val + q.val, by have := n.isLt; have := q.isLt; omega⟩
      = ∑ j : Fin 4096, f j :=
  sum_blocks_fin 8 512 rfl f

/-- Four blocks of 1024 positions make up 4096 positions. -/
theorem sum_blocks_4_1024 (f : Fin 4096 → M) :
    ∑ n : Fin 4, ∑ q : Fin 1024, f ⟨1024 * n.val + q.val, by have := n.isLt; have := q.isLt; omega⟩
      = ∑ j : Fin 4096, f j :=
  sum_blocks_fin 4 1024 rfl f

/-- A left fold that adds `g n` at step `n`, from `init`, over the first `N` steps, is `init` plus the sum. -/
theorem foldl_add_eq_sum (g : ℕ → M) (init : M) (N : ℕ) :
    (List.range N).foldl (fun acc n => acc + g n) init = init + ∑ n ∈ Finset.range N, g n := by
  induction N with
  | zero => simp
  | succ N ih =>
    rw [List.range_succ, List.foldl_append, ih, Finset.sum_range_succ]
    show init + ∑ n ∈ Finset.range N, g n + g N = _
    rw [add_assoc]

/-- The running sum: `acc 0 = 0`, `acc (n + 1) = acc n + g n`. -/
def runningSum (g : ℕ → M) : ℕ → M
  | 0 => 0
  | n + 1 => runningSum g n + g n

/-- After `N` steps the running sum is `∑ n < N, g n`. -/
theorem runningSum_eq_sum (g : ℕ → M) (N : ℕ) : runningSum g N = ∑ n ∈ Finset.range N, g n := by
  induction N with
  | zero => rfl
  | succ N ih => rw [runningSum, ih, Finset.sum_range_succ]

/-- Any accumulator sequence that starts at `0` and adds `g n` at step `n` is, after `N` steps, the sum over
    `Fin N` of `g`. -/
theorem acc_eq_sum_fin (g : ℕ → M) (acc : ℕ → M) (h0 : acc 0 = 0) (hs : ∀ n, acc (n + 1) = acc n + g n) (N : ℕ) :
    acc N = ∑ n : Fin N, g n.val := by
  rw [Fin.sum_univ_eq_sum_range (fun n => g n) N]
  induction N with
  | zero => simpa using h0
  | succ N ih => rw [hs, ih, Finset.sum_range_succ]

end Cert.BlockSums
-- ==== Proof.Region2Pieces.lean ====
/-
  The third grid region (grid 4 × 3 × 8, point 24·b + 8·qi + h): what each of its three control cases leaves in the
  output block [1, 768, 512], as a pure function of the four input blocks and of the block's earlier contents.
  Case A (h = 0) stores the zero block and then the accumulation step over it; case B (0 < h < 7) stores the
  accumulation step over the carried contents; case C (h = 7) stores the accumulation step and then adds the bias row.
  Every load and store covers its whole buffer, so the pieces the generated run finds read back as the payloads.
-/
import proofs.«101738_j19086834664148_2_alg».proof.Proof.Gen.KernelIdeal.Frame
import Idealize.ShloMosaic.Lib.Pipeline.Value
import Idealize.ShloMosaic.Lib.Tactic

noncomputable section

namespace Cert.KernelIdeal.Region2

open Idealize.ShloMosaic Idealize.ShloMosaic.TcCoe Idealize.SL.Sem Cert.KernelIdeal Cert.KernelIdeal.Gen
open Idealize.ShloMosaic.Pipeline (Dat)
open scoped BigOperators

variable {F : FTy → Type} [FloatOps F]

theorem hz3 : (![0, 0, 0] : Fin 3 → Nat) = fun _ => 0 := funext fun a => by fin_cases a <;> rfl

theorem hz1 : (![0] : Fin 1 → Nat) = fun _ => 0 := funext fun a => by fin_cases a <;> rfl

/-- Case B (0 < h < 7): the block holding `xo4` is left at the accumulation payload of the three input blocks over `xo4`. -/
theorem out_B (c : Dev nD) (i : grid2.Coords) (a3 : Memref sig .tc .vmem S1x768x64 .bf16) (h3 : a3.IsWhole) (a4 : Memref sig .tc .vmem S1x64x64 .bf16) (h4 : a4.IsWhole) (a5 : Memref sig .tc .vmem S1x512x64 .bf16) (h5 : a5.IsWhole) (a6 : Memref sig .tc .vmem S512 .f32) (h6 : a6.IsWhole) (a7 : Memref sig .tc .vmem S1x768x512 .f32) (h7 : a7.IsWhole) (hc0 : ¬cond2_0 i) (hc1 : ¬cond2_1 i)
    (x0 : Vec F S1x768x64 .bf16) (x1 : Vec F S1x64x64 .bf16) (x2 : Vec F S1x512x64 .bf16) (x3 : Vec F S512 .f32) (xo4 : Vec F S1x768x512 .f32) :
    out2_B_4 c i a3 h3 a4 h4 a5 h5 a6 h6 a7 h7 hc0 hc1 x0 x1 x2 x3 xo4 = k2_pay2 x0 x1 x2 xo4 := by
  unfold out2_B_4
  rw [View.read_writes_eq_canon _ _ _ (cover2_B_4 c i a3 h3 a4 h4 a5 h5 a6 h6 a7 h7 hc0 hc1 x0 x1 x2 x3 xo4)]
  unfold kernelRun2_B
  dsimp only
  rw [View.canon_unit_zero hz3]
  simp only [View.readAt_eq_ld, h3.read_unread, h4.read_unread, h5.read_unread, h7.read_unread,
    View.ld_unit_zero (S := S1x768x64) hz3, View.ld_unit_zero (S := S1x64x64) hz3, View.ld_unit_zero (S := S1x512x64) hz3,
    View.ld_unit_zero (S := S1x768x512) hz3]

/-- Case A (h = 0): the block is first set to the zero payload, read back, and left at the accumulation payload over it. -/
theorem out_A (c : Dev nD) (i : grid2.Coords) (a3 : Memref sig .tc .vmem S1x768x64 .bf16) (h3 : a3.IsWhole) (a4 : Memref sig .tc .vmem S1x64x64 .bf16) (h4 : a4.IsWhole) (a5 : Memref sig .tc .vmem S1x512x64 .bf16) (h5 : a5.IsWhole) (a6 : Memref sig .tc .vmem S512 .f32) (h6 : a6.IsWhole) (a7 : Memref sig .tc .vmem S1x768x512 .f32) (h7 : a7.IsWhole) (hc0 : cond2_0 i) (hc1 : ¬cond2_1 i)
    (x0 : Vec F S1x768x64 .bf16) (x1 : Vec F S1x64x64 .bf16) (x2 : Vec F S1x512x64 .bf16) (x3 : Vec F S512 .f32) :
    out2_A_4 c i a3 h3 a4 h4 a5 h5 a6 h6 a7 h7 hc0 hc1 x0 x1 x2 x3 = k2_pay2 x0 x1 x2 k2_pay1 := by
  unfold out2_A_4
  rw [View.read_writes_eq_canon _ _ _ (cover2_A_4 c i a3 h3 a4 h4 a5 h5 a6 h6 a7 h7 hc0 hc1 x0 x1 x2 x3)]
  unfold kernelRun2_A
  dsimp only
  sl_unfold_words
  rw [View.canon_cons_unit_zero (S := S1x768x512) hz3, View.readCov_unit_zero (S := S1x768x512) _ hz3]
  simp only [View.readAt_eq_ld, h3.read_unread, h4.read_unread, h5.read_unread,
    View.ld_unit_zero (S := S1x768x64) hz3, View.ld_unit_zero (S := S1x64x64) hz3, View.ld_unit_zero (S := S1x512x64) hz3]

/-- Case C (h = 7): the accumulation payload over `xo4` is stored, read back, and the bias payload over it is left. -/
theorem out_C (c : Dev nD) (i : grid2.Coords) (a3 : Memref sig .tc .vmem S1x768x64 .bf16) (h3 : a3.IsWhole) (a4 : Memref sig .tc .vmem S1x64x64 .bf16) (h4 : a4.IsWhole) (a5 : Memref sig .tc .vmem S1x512x64 .bf16) (h5 : a5.IsWhole) (a6 : Memref sig .tc .vmem S512 .f32) (h6 : a6.IsWhole) (a7 : Memref sig .tc .vmem S1x768x512 .f32) (h7 : a7.IsWhole) (hc0 : ¬cond2_0 i) (hc1 : cond2_1 i)
    (x0 : Vec F S1x768x64 .bf16) (x1 : Vec F S1x64x64 .bf16) (x2 : Vec F S1x512x64 .bf16) (x3 : Vec F S512 .f32) (xo4 : Vec F S1x768x512 .f32) :
    out2_C_4 c i a3 h3 a4 h4 a5 h5 a6 h6 a7 h7 hc0 hc1 x0 x1 x2 x3 xo4 = k2_pay3 (k2_pay2 x0 x1 x2 xo4) x3 := by
  unfold out2_C_4
  rw [View.read_writes_eq_canon _ _ _ (cover2_C_4 c i a3 h3 a4 h4 a5 h5 a6 h6 a7 h7 hc0 hc1 x0 x1 x2 x3 xo4)]
  unfold kernelRun2_C
  dsimp only
  sl_unfold_words
  rw [View.canon_cons_unit_zero (S := S1x768x512) hz3, View.readCov_unit_zero (S := S1x768x512) _ hz3]
  simp only [View.readAt_eq_ld, h3.read_unread, h4.read_unread, h5.read_unread, h6.read_unread, h7.read_unread,
    View.ld_unit_zero (S := S1x768x64) hz3, View.ld_unit_zero (S := S1x64x64) hz3, View.ld_unit_zero (S := S1x512x64) hz3,
    View.ld_unit_zero (S := S1x768x512) hz3, View.ld_unit_zero (S := S512) hz1]

end Cert.KernelIdeal.Region2
end
-- ==== Proof.Region2Pay.lean ====
/-
  The three payloads of the third grid region's body, read at one entry over the extended reals (every float an exact
  extended real, a change of float format the identity, a matrix product into the zero accumulator a plain finite sum):
    the zero payload is 0 everywhere;
    the accumulation payload at (·, r, c) is acc[r, c] + Σ_e (Σ_d q[r, d] · kv[d, e]) · wh[c, e];
    the bias payload at (·, r, c) is v[r, c] + bias[c].
-/
import proofs.«101738_j19086834664148_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region2

open Idealize.ShloMosaic Idealize.ShloMosaic.TcCoe Idealize.SL.Sem Cert.KernelIdeal Cert.KernelIdeal.Gen
open Idealize.ShloMosaic.Pipeline (Dat)
open Idealize.ShloMosaic.ValueIdx
open scoped BigOperators

abbrev D1 := dot_S768x64_S64x64_S768x64_1_0_0_1_n_n
abbrev D2 := dot_S768x64_S512x64_S768x512_1_1_0_0_n_n

/-! ## The two matrix products' operand indices -/

theorem D1_lhs0 (i : S768x64.Idx) (q : D1.contr.Idx) : (D1.lhsIdx i q 0).val = (i 0).val := by
  unfold DotDims.lhsIdx
  rw [dif_neg (show ¬(0 : Fin S768x64.rank) ∈ D1.lhsBatch by decide), dif_pos (show (0 : Fin S768x64.rank) ∈ D1.lhsNonContracting by decide)]
  rfl
theorem D1_lhs1 (i : S768x64.Idx) (q : D1.contr.Idx) : (D1.lhsIdx i q 1).val = (q ⟨0, by decide⟩).val :=
  D1.lhsIdx_val_of_single rfl i q
theorem D1_rhs0 (i : S768x64.Idx) (q : D1.contr.Idx) : (D1.rhsIdx i q 0).val = (q ⟨0, by decide⟩).val :=
  D1.rhsIdx_val_of_single rfl i q
theorem D1_rhs1 (i : S768x64.Idx) (q : D1.contr.Idx) : (D1.rhsIdx i q 1).val = (i 1).val := by
  unfold DotDims.rhsIdx
  rw [dif_neg (show ¬(1 : Fin S64x64.rank) ∈ D1.rhsBatch by decide), dif_pos (show (1 : Fin S64x64.rank) ∈ D1.rhsNonContracting by decide)]
  rfl

theorem D2_lhs0 (i : S768x512.Idx) (q : D2.contr.Idx) : (D2.lhsIdx i q 0).val = (i 0).val := by
  unfold DotDims.lhsIdx
  rw [dif_neg (show ¬(0 : Fin S768x64.rank) ∈ D2.lhsBatch by decide), dif_pos (show (0 : Fin S768x64.rank) ∈ D2.lhsNonContracting by decide)]
  rfl
theorem D2_lhs1 (i : S768x512.Idx) (q : D2.contr.Idx) : (D2.lhsIdx i q 1).val = (q ⟨0, by decide⟩).val :=
  D2.lhsIdx_val_of_single rfl i q
theorem D2_rhs0 (i : S768x512.Idx) (q : D2.contr.Idx) : (D2.rhsIdx i q 0).val = (i 1).val := by
  unfold DotDims.rhsIdx
  rw [dif_neg (show ¬(0 : Fin S512x64.rank) ∈ D2.rhsBatch by decide), dif_pos (show (0 : Fin S512x64.rank) ∈ D2.rhsNonContracting by decide)]
  rfl
theorem D2_rhs1 (i : S768x512.Idx) (q : D2.contr.Idx) : (D2.rhsIdx i q 1).val = (q ⟨0, by decide⟩).val :=
  D2.rhsIdx_val_of_single rfl i q

/-- The first product, [768, 64] · [64, 64] into zero: entry (r, e) is Σ_d L[r, d] · R[d, e]. -/
theorem mm1_apply (L : FVec Ideal S768x64 .bf16) (R : FVec Ideal S64x64 .bf16) (r : Fin 768) (e : Fin 64) :
    matmul D1 none L R (constant (F := Ideal) S768x64 .f32 0x00000000#32) (ix2 r e)
      = ∑ d : Fin 64, L (ix2 r d) * R (ix2 d e) := by
  simp only [matmul]
  rw [Ideal.matmul_constant_zero_apply, ← Equiv.sum_comp (contrEquiv1 D1 64 rfl rfl).symm]
  refine Finset.sum_congr rfl fun k _ => ?_
  have hk := contrEquiv1_symm_val D1 64 rfl rfl k
  have el : D1.lhsIdx (ix2 r e) ((contrEquiv1 D1 64 rfl rfl).symm k) = ix2 r k := funext fun a => Fin.ext (by
    match a with
    | ⟨0, _⟩ => exact D1_lhs0 _ _
    | ⟨1, _⟩ => exact (D1_lhs1 _ _).trans hk)
  have er : D1.rhsIdx (ix2 r e) ((contrEquiv1 D1 64 rfl rfl).symm k) = ix2 k e := funext fun a => Fin.ext (by
    match a with
    | ⟨0, _⟩ => exact (D1_rhs0 _ _).trans hk
    | ⟨1, _⟩ => exact D1_rhs1 _ _)
  rw [el, er]

/-- The second product, [768, 64] · [512, 64]ᵀ into zero: entry (r, c) is Σ_e L[r, e] · R[c, e]. -/
theorem mm2_apply (L : FVec Ideal S768x64 .bf16) (R : FVec Ideal S512x64 .bf16) (r : Fin 768) (c : Fin 512) :
    matmul D2 none L R (constant (F := Ideal) S768x512 .f32 0x00000000#32) (ix2 r c)
      = ∑ e : Fin 64, L (ix2 r e) * R (ix2 c e) := by
  simp only [matmul]
  rw [Ideal.matmul_constant_zero_apply, ← Equiv.sum_comp (contrEquiv1 D2 64 rfl rfl).symm]
  refine Finset.sum_congr rfl fun k _ => ?_
  have hk := contrEquiv1_symm_val D2 64 rfl rfl k
  have el : D2.lhsIdx (ix2 r c) ((contrEquiv1 D2 64 rfl rfl).symm k) = ix2 r k := funext fun a => Fin.ext (by
    match a with
    | ⟨0, _⟩ => exact D2_lhs0 _ _
    | ⟨1, _⟩ => exact (D2_lhs1 _ _).trans hk)
  have er : D2.rhsIdx (ix2 r c) ((contrEquiv1 D2 64 rfl rfl).symm k) = ix2 c k := funext fun a => Fin.ext (by
    match a with
    | ⟨0, _⟩ => exact D2_rhs0 _ _
    | ⟨1, _⟩ => exact (D2_rhs1 _ _).trans hk)
  rw [el, er]

/-! ## The payloads at an entry -/

/-- The zero payload is 0 at every entry. -/
theorem pay1_apply (j : S1x768x512.Idx) : (k2_pay1 (F := Ideal) j : EReal) = 0 := by
  obtain ⟨u, r, c, rfl⟩ : ∃ (u : Fin 1) (r : Fin 768) (c : Fin 512), j = ix3 u r c := ⟨j 0, j 1, j 2, eq_ix3 j⟩
  unfold k2_pay1
  refine (shapeCast_ab_1ab_apply _ _ u r c).trans ?_
  exact Ideal.ofBits_zero_f32

/-- The accumulation payload at (u, r, c): acc[r, c] + Σ_e (Σ_d q[r, d] · kv[d, e]) · wh[c, e]. -/
theorem pay2_apply (x0 : Vec Ideal S1x768x64 .bf16) (x1 : Vec Ideal S1x64x64 .bf16) (x2 : Vec Ideal S1x512x64 .bf16)
    (acc : Vec Ideal S1x768x512 .f32) (u : Fin 1) (r : Fin 768) (c : Fin 512) :
    (k2_pay2 (F := Ideal) x0 x1 x2 acc (ix3 u r c) : EReal)
      = acc (ix3 (0 : Fin 1) r c)
        + ∑ e : Fin 64, (∑ d : Fin 64, x0 (ix3 (0 : Fin 1) r d) * x1 (ix3 (0 : Fin 1) d e)) * x2 (ix3 (0 : Fin 1) c e) := by
  unfold k2_pay2
  refine (shapeCast_ab_1ab_apply _ _ u r c).trans ?_
  refine congrArg₂ (· + ·) (shapeCast_1ab_ab_apply acc _ r c) ?_
  refine (mm2_apply _ _ r c).trans ?_
  refine Finset.sum_congr rfl fun e _ => ?_
  refine congrArg₂ (· * ·) ?_ (shapeCast_1ab_ab_apply x2 _ c e)
  refine (mm1_apply _ _ r e).trans ?_
  refine Finset.sum_congr rfl fun d _ => ?_
  exact congrArg₂ (· * ·) (shapeCast_1ab_ab_apply x0 _ r d) (shapeCast_1ab_ab_apply x1 _ d e)

/-- The bias payload at (u, r, c): v[r, c] + bias[c]. -/
theorem pay3_apply (v : Vec Ideal S1x768x512 .f32) (b : Vec Ideal S512 .f32) (u : Fin 1) (r : Fin 768) (c : Fin 512) :
    (k2_pay3 (F := Ideal) v b (ix3 u r c) : EReal) = v (ix3 (0 : Fin 1) r c) + b (ix1 c) := by
  unfold k2_pay3
  refine (shapeCast_ab_1ab_apply _ _ u r c).trans ?_
  refine congrArg₂ (· + ·) (shapeCast_1ab_ab_apply v _ r c) ?_
  refine (broadcastTo_1b_ab_apply _ _ r c).trans ?_
  exact shapeCast_a_1a_apply b _ 0 c

end Cert.KernelIdeal.Region2
end
-- ==== Proof.Region2Blocks.lean ====
/-
  Where the blocks of the third grid region sit in their arrays. At point t = 24·b + 8·qi + h of the grid 4 × 3 × 8
  (b = t / 24, qi = t / 8 % 3, h = t % 8) the five windows' block indices are
    q      [32, 2304, 64], block [1, 768, 64]  at (8·b + h, qi, 0),
    kv     [32, 64, 64],   block [1, 64, 64]   at (8·b + h, 0, 0),
    w_out  [8, 512, 64],   block [1, 512, 64]  at (h, 0, 0),
    bias   [512],          the whole array,
    out    [4, 2304, 512], block [1, 768, 512] at (b, qi, 0),
  decided once over the 96 points; an entry of a block is the array's entry at block index × block size + the
  coordinate inside the block, on each axis.
-/
import proofs.«101738_j19086834664148_2_alg».proof.Proof.Gen.KernelIdeal.Frame
import Idealize.ShloMosaic.Lib.Pipeline.Value
import Idealize.ShloMosaic.Lib.ValueIdx

noncomputable section

namespace Cert.KernelIdeal.Region2

open Idealize.ShloMosaic Idealize.ShloMosaic.TcCoe Idealize.SL.Sem Cert.KernelIdeal Cert.KernelIdeal.Gen
open Idealize.ShloMosaic.Pipeline (Dat)
open Idealize.ShloMosaic.ValueIdx
open scoped BigOperators

variable (V : (c : Dev nD) → (b : Ref sig .tc) → Buf (Elt Ideal) ((c : Thread nD τ).loc b)) (c : Dev nD)

/-- The grid has 96 points. -/
theorem t_lt (t : Fin cfg2.N) : t.val < 96 := lt_of_lt_of_eq t.isLt (show cfg2.N = 96 from N_2)

/-- The five windows' block indices at every point, decided over the grid. -/
theorem idx_facts : ∀ t : Fin cfg2.N,
    win2_0.index t (0 : Fin 3) = 8 * (t.val / 24) + t.val % 8 ∧ win2_0.index t (1 : Fin 3) = t.val / 8 % 3 ∧ win2_0.index t (2 : Fin 3) = 0
    ∧ win2_1.index t (0 : Fin 3) = 8 * (t.val / 24) + t.val % 8 ∧ win2_1.index t (1 : Fin 3) = 0 ∧ win2_1.index t (2 : Fin 3) = 0
    ∧ win2_2.index t (0 : Fin 3) = t.val % 8 ∧ win2_2.index t (1 : Fin 3) = 0 ∧ win2_2.index t (2 : Fin 3) = 0
    ∧ win2_3.index t (0 : Fin 1) = 0
    ∧ win2_4.index t (0 : Fin 3) = t.val / 24 ∧ win2_4.index t (1 : Fin 3) = t.val / 8 % 3 ∧ win2_4.index t (2 : Fin 3) = 0 :=
  (by decide +kernel : ∀ t : Fin grid2.N, _)

/-- The q block at point t: entry (·, r, d) is q[8·b + h, 768·qi + r, d]. -/
theorem qblk_apply (t : Fin cfg2.N) (u : Fin 1) (r : Fin 768) (d : Fin 64) :
    (iblk2 V c 0 t : S1x768x64.Idx → EReal) (ix3 u r d)
      = (V c main_v10 : S32x2304x64.Idx → EReal)
          (ix3 (⟨8 * (t.val / 24) + t.val % 8, by have := t_lt t; omega⟩ : Fin 32)
            (⟨768 * (t.val / 8 % 3) + r.val, by have := t_lt t; omega⟩ : Fin 2304) d) := by
  obtain ⟨e0, e1, e2, -⟩ := idx_facts t
  show V c main_v10 (((cfg2.win 0).blk t).view.emb (ix3 u r d)) = V c main_v10 _
  refine congrArg (V c main_v10) ?_
  funext a; apply Fin.ext
  match a with
  | ⟨0, _⟩ => show win2_0.index t (0 : Fin 3) * 1 + 1 * u.val = 8 * (t.val / 24) + t.val % 8; omega
  | ⟨1, _⟩ => show win2_0.index t (1 : Fin 3) * 768 + 1 * r.val = 768 * (t.val / 8 % 3) + r.val; omega
  | ⟨2, _⟩ => show win2_0.index t (2 : Fin 3) * 64 + 1 * d.val = d.val; omega

/-- The kv block at point t: entry (·, d, e) is kv[8·b + h, d, e]. -/
theorem kvblk_apply (t : Fin cfg2.N) (u : Fin 1) (d e : Fin 64) :
    (iblk2 V c 1 t : S1x64x64.Idx → EReal) (ix3 u d e)
      = (V c main_v17 : S32x64x64.Idx → EReal)
          (ix3 (⟨8 * (t.val / 24) + t.val % 8, by have := t_lt t; omega⟩ : Fin 32) d e) := by
  obtain ⟨-, -, -, e0, e1, e2, -⟩ := idx_facts t
  show V c main_v17 (((cfg2.win 1).blk t).view.emb (ix3 u d e)) = V c main_v17 _
  refine congrArg (V c main_v17) ?_
  funext a; apply Fin.ext
  match a with
  | ⟨0, _⟩ => show win2_1.index t (0 : Fin 3) * 1 + 1 * u.val = 8 * (t.val / 24) + t.val % 8; omega
  | ⟨1, _⟩ => show win2_1.index t (1 : Fin 3) * 64 + 1 * d.val = d.val; omega
  | ⟨2, _⟩ => show win2_1.index t (2 : Fin 3) * 64 + 1 * e.val = e.val; omega

/-- The w_out block at point t: entry (·, cc, e) is w_out heads[h, cc, e]. -/
theorem whblk_apply (t : Fin cfg2.N) (u : Fin 1) (cc : Fin 512) (e : Fin 64) :
    (iblk2 V c 2 t : S1x512x64.Idx → EReal) (ix3 u cc e)
      = (V c main_v19 : S8x512x64.Idx → EReal) (ix3 (⟨t.val % 8, Nat.mod_lt _ (by norm_num)⟩ : Fin 8) cc e) := by
  obtain ⟨-, -, -, -, -, -, e0, e1, e2, -⟩ := idx_facts t
  show V c main_v19 (((cfg2.win 2).blk t).view.emb (ix3 u cc e)) = V c main_v19 _
  refine congrArg (V c main_v19) ?_
  funext a; apply Fin.ext
  match a with
  | ⟨0, _⟩ => show win2_2.index t (0 : Fin 3) * 1 + 1 * u.val = t.val % 8; omega
  | ⟨1, _⟩ => show win2_2.index t (1 : Fin 3) * 512 + 1 * cc.val = cc.val; omega
  | ⟨2, _⟩ => show win2_2.index t (2 : Fin 3) * 64 + 1 * e.val = e.val; omega

/-- The bias block at every point is the bias array. -/
theorem bblk_apply (t : Fin cfg2.N) (cc : Fin 512) :
    (iblk2 V c 3 t : S512.Idx → EReal) (ix1 cc) = (V c main_arg4 : S512.Idx → EReal) (ix1 cc) := by
  obtain ⟨-, -, -, -, -, -, -, -, -, e0, -⟩ := idx_facts t
  show V c main_arg4 (((cfg2.win 3).blk t).view.emb (ix1 cc)) = V c main_arg4 _
  refine congrArg (V c main_arg4) ?_
  funext a; apply Fin.ext
  match a with
  | ⟨0, _⟩ => show win2_3.index t (0 : Fin 1) * 512 + 1 * cc.val = cc.val; omega

end Cert.KernelIdeal.Region2
end
-- ==== Proof.Region2Step.lean ====
/-
  One grid point of the third region, read at one entry of the carried output block [1, 768, 512] over the extended reals.
  Point t = 24·b + 8·qi + h contributes, to entry (r, c) of the block at rows 768·qi … of batch b,
    term(t)[r, c] = Σ_e (Σ_d q[8·b + h, 768·qi + r, d] · kv[8·b + h, d, e]) · w_out heads[h, c, e];
  at h = 0 the block becomes 0 + term(t); at 0 < h < 7 it becomes (what point t − 1 left) + term(t); at h = 7 it becomes
  ((what point t − 1 left) + term(t)) + bias[c].
-/
import proofs.«101738_j19086834664148_2_alg».proof.Proof.Gen.KernelIdeal.Frame
import proofs.«101738_j19086834664148_2_alg».proof.Proof.Region2Pieces
import proofs.«101738_j19086834664148_2_alg».proof.Proof.Region2Pay
import proofs.«101738_j19086834664148_2_alg».proof.Proof.Region2Blocks

noncomputable section

namespace Cert.KernelIdeal.Region2

open Idealize.ShloMosaic Idealize.ShloMosaic.TcCoe Idealize.SL.Sem Cert.KernelIdeal Cert.KernelIdeal.Gen
open Idealize.ShloMosaic.Pipeline (Dat)
open Idealize.ShloMosaic.ValueIdx
open scoped BigOperators

variable (V : (c : Dev nD) → (b : Ref sig .tc) → Buf (Elt Ideal) ((c : Thread nD τ).loc b)) (c : Dev nD)

/-- The four input arrays as the region finds them, and the blocks at a point, as functions into the extended reals. -/
abbrev arrQ : S32x2304x64.Idx → EReal := V c main_v10
abbrev arrKV : S32x64x64.Idx → EReal := V c main_v17
abbrev arrWH : S8x512x64.Idx → EReal := V c main_v19
abbrev arrB : S512.Idx → EReal := V c main_arg4
abbrev blkQ (t : Fin cfg2.N) : S1x768x64.Idx → EReal := iblk2 V c 0 t
abbrev blkKV (t : Fin cfg2.N) : S1x64x64.Idx → EReal := iblk2 V c 1 t
abbrev blkWH (t : Fin cfg2.N) : S1x512x64.Idx → EReal := iblk2 V c 2 t
abbrev blkB (t : Fin cfg2.N) : S512.Idx → EReal := iblk2 V c 3 t
/-- The carried output block after point n. -/
abbrev blkOut (n : ℕ) (hn : n < cfg2.N) : S1x768x512.Idx → EReal := outsAt2 V c n hn

/-- What point t adds to entry (r, cc) of its output block. -/
def pointTerm (t : Fin cfg2.N) (r : Fin 768) (cc : Fin 512) : EReal :=
  ∑ e : Fin 64, (∑ d : Fin 64,
      arrQ V c (ix3 (⟨8 * (t.val / 24) + t.val % 8, by have := t_lt t; omega⟩ : Fin 32)
            (⟨768 * (t.val / 8 % 3) + r.val, by have := t_lt t; omega⟩ : Fin 2304) d)
        * arrKV V c (ix3 (⟨8 * (t.val / 24) + t.val % 8, by have := t_lt t; omega⟩ : Fin 32) d e))
    * arrWH V c (ix3 (⟨t.val % 8, Nat.mod_lt _ (by norm_num)⟩ : Fin 8) cc e)

/-- The same sum written over the three input blocks at point t. -/
theorem blockTerm_eq (t : Fin cfg2.N) (r : Fin 768) (cc : Fin 512) :
    (∑ e : Fin 64, (∑ d : Fin 64, blkQ V c t (ix3 (0 : Fin 1) r d) * blkKV V c t (ix3 (0 : Fin 1) d e))
        * blkWH V c t (ix3 (0 : Fin 1) cc e))
      = pointTerm V c t r cc :=
  Finset.sum_congr rfl fun e _ =>
    congrArg₂ (· * ·)
      (Finset.sum_congr rfl fun d _ => congrArg₂ (· * ·) (qblk_apply V c t 0 r d) (kvblk_apply V c t 0 d e))
      (whblk_apply V c t 0 cc e)

/-- After a point with h = 0 the block holds the accumulation step over the zero block. -/
theorem outs_A (t : Fin cfg2.N) (h0 : t.val % 8 = 0) (h1 : ¬t.val % 8 = 7) :
    outsAt2 V c t.val t.isLt = k2_pay2 (F := Ideal) (iblk2 V c 0 t) (iblk2 V c 1 t) (iblk2 V c 2 t) (k2_pay1 (F := Ideal)) :=
  (outsAt2_A V c t h0 h1).trans
    (out_A c (grid2.coords t) (ms2_0 t) (hs2_0 t) (ms2_1 t) (hs2_1 t) (ms2_2 t) (hs2_2 t) (ms2_3 t) (hs2_3 t) (ms2_4 t) (hs2_4 t)
      ((hcond2_0 t).mpr h0) (fun h => h1 ((hcond2_1 t).mp h)) (iblk2 V c 0 t) (iblk2 V c 1 t) (iblk2 V c 2 t) (iblk2 V c 3 t))

/-- After a point with 0 < h < 7 the block holds the accumulation step over what the point before left. -/
theorem outs_B (t : Fin cfg2.N) (h0 : ¬t.val % 8 = 0) (h1 : ¬t.val % 8 = 7) :
    outsAt2 V c t.val t.isLt = k2_pay2 (F := Ideal) (iblk2 V c 0 t) (iblk2 V c 1 t) (iblk2 V c 2 t)
      (outsAt2 V c (t.val - 1) (Nat.lt_of_le_of_lt (Nat.sub_le _ _) t.isLt)) :=
  (outsAt2_B V c t h0 h1).trans
    (out_B c (grid2.coords t) (ms2_0 t) (hs2_0 t) (ms2_1 t) (hs2_1 t) (ms2_2 t) (hs2_2 t) (ms2_3 t) (hs2_3 t) (ms2_4 t) (hs2_4 t)
      (fun h => h0 ((hcond2_0 t).mp h)) (fun h => h1 ((hcond2_1 t).mp h)) (iblk2 V c 0 t) (iblk2 V c 1 t) (iblk2 V c 2 t) (iblk2 V c 3 t)
      (outsAt2 V c (t.val - 1) (Nat.lt_of_le_of_lt (Nat.sub_le _ _) t.isLt)))

/-- After a point with h = 7 the block holds the bias step over the accumulation step over what the point before left. -/
theorem outs_C (t : Fin cfg2.N) (h0 : ¬t.val % 8 = 0) (h1 : t.val % 8 = 7) :
    outsAt2 V c t.val t.isLt = k2_pay3 (F := Ideal) (k2_pay2 (F := Ideal) (iblk2 V c 0 t) (iblk2 V c 1 t) (iblk2 V c 2 t)
      (outsAt2 V c (t.val - 1) (Nat.lt_of_le_of_lt (Nat.sub_le _ _) t.isLt))) (iblk2 V c 3 t) :=
  (outsAt2_C V c t h0 h1).trans
    (out_C c (grid2.coords t) (ms2_0 t) (hs2_0 t) (ms2_1 t) (hs2_1 t) (ms2_2 t) (hs2_2 t) (ms2_3 t) (hs2_3 t) (ms2_4 t) (hs2_4 t)
      (fun h => h0 ((hcond2_0 t).mp h)) ((hcond2_1 t).mpr h1) (iblk2 V c 0 t) (iblk2 V c 1 t) (iblk2 V c 2 t) (iblk2 V c 3 t)
      (outsAt2 V c (t.val - 1) (Nat.lt_of_le_of_lt (Nat.sub_le _ _) t.isLt)))

/-- h = 0, at an entry: 0 + term(t). -/
theorem step_A (t : Fin cfg2.N) (h0 : t.val % 8 = 0) (u : Fin 1) (r : Fin 768) (cc : Fin 512) :
    blkOut V c t.val t.isLt (ix3 u r cc) = 0 + pointTerm V c t r cc := by
  have h1 : ¬t.val % 8 = 7 := by omega
  refine (congrFun (outs_A V c t h0 h1) (ix3 u r cc)).trans ?_
  refine (pay2_apply (iblk2 V c 0 t) (iblk2 V c 1 t) (iblk2 V c 2 t) (k2_pay1 (F := Ideal)) u r cc).trans ?_
  exact congrArg₂ (· + ·) (pay1_apply (ix3 (0 : Fin 1) r cc)) (blockTerm_eq V c t r cc)

/-- 0 < h < 7, at an entry: (the point before) + term(t). -/
theorem step_B (t : Fin cfg2.N) (h0 : ¬t.val % 8 = 0) (h1 : ¬t.val % 8 = 7) (u : Fin 1) (r : Fin 768) (cc : Fin 512) :
    blkOut V c t.val t.isLt (ix3 u r cc)
      = blkOut V c (t.val - 1) (Nat.lt_of_le_of_lt (Nat.sub_le _ _) t.isLt) (ix3 (0 : Fin 1) r cc) + pointTerm V c t r cc := by
  refine (congrFun (outs_B V c t h0 h1) (ix3 u r cc)).trans ?_
  refine (pay2_apply (iblk2 V c 0 t) (iblk2 V c 1 t) (iblk2 V c 2 t)
    (outsAt2 V c (t.val - 1) (Nat.lt_of_le_of_lt (Nat.sub_le _ _) t.isLt)) u r cc).trans ?_
  exact congrArg₂ (· + ·) rfl (blockTerm_eq V c t r cc)

/-- h = 7, at an entry: ((the point before) + term(t)) + bias. -/
theorem step_C (t : Fin cfg2.N) (h0 : ¬t.val % 8 = 0) (h1 : t.val % 8 = 7) (u : Fin 1) (r : Fin 768) (cc : Fin 512) :
    blkOut V c t.val t.isLt (ix3 u r cc)
      = (blkOut V c (t.val - 1) (Nat.lt_of_le_of_lt (Nat.sub_le _ _) t.isLt) (ix3 (0 : Fin 1) r cc) + pointTerm V c t r cc)
        + arrB V c (ix1 cc) := by
  refine (congrFun (outs_C V c t h0 h1) (ix3 u r cc)).trans ?_
  refine (pay3_apply (k2_pay2 (F := Ideal) (iblk2 V c 0 t) (iblk2 V c 1 t) (iblk2 V c 2 t)
    (outsAt2 V c (t.val - 1) (Nat.lt_of_le_of_lt (Nat.sub_le _ _) t.isLt))) (iblk2 V c 3 t) u r cc).trans ?_
  refine congrArg₂ (· + ·) ?_ (bblk_apply V c t cc)
  refine (pay2_apply (iblk2 V c 0 t) (iblk2 V c 1 t) (iblk2 V c 2 t)
    (outsAt2 V c (t.val - 1) (Nat.lt_of_le_of_lt (Nat.sub_le _ _) t.isLt)) (0 : Fin 1) r cc).trans ?_
  exact congrArg₂ (· + ·) rfl (blockTerm_eq V c t r cc)

end Cert.KernelIdeal.Region2
end
-- ==== Proof.Region2Inv.lean ====
/-
  The accumulation across a run of h. The output block at (b, qi) is carried over the eight points
  t = 24·b + 8·qi + h, h = 0 … 7, of its run and written back after the last. By induction on the point:
  after point n the carried block holds, at entry (r, c), the sum of the terms of the points n − n % 8 … n of its run
  (0 + x = x and associativity of + hold on all extended reals), plus bias[c] when n % 8 = 7.
-/
import proofs.«101738_j19086834664148_2_alg».proof.Proof.Region2Step

noncomputable section

namespace Cert.KernelIdeal.Region2

open Idealize.ShloMosaic Idealize.ShloMosaic.TcCoe Idealize.SL.Sem Cert.KernelIdeal Cert.KernelIdeal.Gen
open Idealize.ShloMosaic.Pipeline (Dat)
open Idealize.ShloMosaic.ValueIdx
open scoped BigOperators

variable (V : (c : Dev nD) → (b : Ref sig .tc) → Buf (Elt Ideal) ((c : Thread nD τ).loc b)) (c : Dev nD)

/-- Point m's term, 0 past the grid's 96 points. -/
def ptTerm (m : ℕ) (r : Fin 768) (cc : Fin 512) : EReal :=
  if hm : m < cfg2.N then pointTerm V c ⟨m, hm⟩ r cc else 0

/-- The terms of the points of n's run up to n: points n − n % 8, …, n. -/
def runSum (n : ℕ) (r : Fin 768) (cc : Fin 512) : EReal :=
  ∑ k ∈ Finset.range (n % 8 + 1), ptTerm V c (n - n % 8 + k) r cc

/-- At the first point of a run the sum is that point's term. -/
theorem runSum_first (n : ℕ) (hn : n < cfg2.N) (h0 : n % 8 = 0) (r : Fin 768) (cc : Fin 512) :
    runSum V c n r cc = pointTerm V c ⟨n, hn⟩ r cc := by
  unfold runSum
  rw [h0, Finset.sum_range_one, Nat.sub_zero, Nat.add_zero]
  unfold ptTerm
  rw [dif_pos hn]

/-- At a later point of a run the sum is the sum at the point before plus this point's term. -/
theorem runSum_succ (m : ℕ) (hn : m + 1 < cfg2.N) (h0 : ¬(m + 1) % 8 = 0) (r : Fin 768) (cc : Fin 512) :
    runSum V c (m + 1) r cc = runSum V c m r cc + pointTerm V c ⟨m + 1, hn⟩ r cc := by
  have e1 : (m + 1) % 8 = m % 8 + 1 := by omega
  have e2 : m + 1 - (m % 8 + 1) = m - m % 8 := by omega
  have e3 : m - m % 8 + (m % 8 + 1) = m + 1 := by omega
  unfold runSum
  rw [e1, e2, Finset.sum_range_succ, e3]
  unfold ptTerm
  rw [dif_pos hn]

/-- THE INVARIANT: after point n the carried block holds the run's sum so far, plus the bias at the run's last point. -/
theorem outsAt_eq : ∀ (n : ℕ) (hn : n < cfg2.N) (u : Fin 1) (r : Fin 768) (cc : Fin 512),
    blkOut V c n hn (ix3 u r cc) = runSum V c n r cc + (if n % 8 = 7 then arrB V c (ix1 cc) else 0) := by
  intro n
  induction n with
  | zero =>
    intro hn u r cc
    refine (step_A V c ⟨0, hn⟩ rfl u r cc).trans ?_
    rw [runSum_first V c 0 hn rfl r cc, if_neg (by omega), zero_add, add_zero]
  | succ m ih =>
    intro hn u r cc
    have hm : m < cfg2.N := Nat.lt_of_succ_lt hn
    by_cases h0 : (m + 1) % 8 = 0
    · refine (step_A V c ⟨m + 1, hn⟩ h0 u r cc).trans ?_
      rw [runSum_first V c (m + 1) hn h0 r cc, if_neg (by omega), zero_add, add_zero]
    · have hprev : blkOut V c m hm (ix3 (0 : Fin 1) r cc) = runSum V c m r cc := by
        rw [ih hm 0 r cc, if_neg (by omega), add_zero]
      by_cases h1 : (m + 1) % 8 = 7
      · refine (step_C V c ⟨m + 1, hn⟩ h0 h1 u r cc).trans ?_
        rw [if_pos h1, runSum_succ V c m hn h0 r cc]
        exact congrArg₂ (· + ·) (congrArg₂ (· + ·) hprev rfl) rfl
      · refine (step_B V c ⟨m + 1, hn⟩ h0 h1 u r cc).trans ?_
        rw [if_neg h1, add_zero, runSum_succ V c m hn h0 r cc]
        exact congrArg₂ (· + ·) hprev rfl

end Cert.KernelIdeal.Region2
end
-- ==== Proof.Region2.lean ====
/-
  The value of the third grid region (grid 4 × 3 × 8; point t = 24·b + 8·qi + h). The output block [1, 768, 512] at
  rows 768·qi … of batch b is carried over the eight points of its run and written back after the point with h = 7,
  holding by then Σ_h term(24·b + 8·qi + h) + bias: entry (r, c) of that block is
    Σ_h Σ_e (Σ_d q[8·b + h, 768·qi + r, d] · kv[8·b + h, d, e]) · w_out heads[h, c, e] + bias[c],
  the fused last stage of the specification at (b, 768·qi + r, c). The twelve written-back blocks tile the output
  array (the block holding row n of batch b is the one of the run (b, n / 768)), so the array ends at that function.
-/
import proofs.«101738_j19086834664148_2_alg».proof.Proof.Gen.KernelIdeal.Frame
import proofs.«101738_j19086834664148_2_alg».proof.Proof.Spec
import proofs.«101738_j19086834664148_2_alg».proof.Proof.LibBlockSums
import proofs.«101738_j19086834664148_2_alg».proof.Proof.Region2Inv

noncomputable section

namespace Cert.KernelIdeal.Region2

open Idealize.ShloMosaic Idealize.ShloMosaic.TcCoe Idealize.SL.Sem Cert.KernelIdeal Cert.KernelIdeal.Gen
open Idealize.ShloMosaic.Pipeline (Dat)
open Idealize.ShloMosaic.ValueIdx
open scoped BigOperators

section Blocks
variable (V : (c : Dev nD) → (b : Ref sig .tc) → Buf (Elt Ideal) ((c : Thread nD τ).loc b)) (c : Dev nD)

theorem ix3_congr {n0 n1 n2 : ℕ} {a a' : Fin n0} {b b' : Fin n1} {d d' : Fin n2} (ha : a = a') (hb : b = b') (hd : d = d') :
    ix3 a b d = ix3 a' b' d' := by subst ha hb hd; rfl

/-- At the last point of a run the run's sum is the sum over the eight heads, written at the run's batch b and row n. -/
theorem runSum_last (t : Fin cfg2.N) (h7 : t.val % 8 = 7) (r : Fin 768) (cc : Fin 512) (b : Fin 4) (n : Fin 2304)
    (hb : b.val = t.val / 24) (hn : n.val = 768 * (t.val / 8 % 3) + r.val) :
    runSum V c t.val r cc
      = ∑ h : Fin 8, ∑ e : Fin 64,
          (∑ d : Fin 64, arrQ V c (ix3 ⟨8 * b.val + h.val, by have := b.isLt; have := h.isLt; omega⟩ n d)
              * arrKV V c (ix3 ⟨8 * b.val + h.val, by have := b.isLt; have := h.isLt; omega⟩ d e))
            * arrWH V c (ix3 h cc e) := by
  have ht := t_lt t
  unfold runSum
  rw [h7, ← Fin.sum_univ_eq_sum_range (fun k => ptTerm V c (t.val - 7 + k) r cc) (7 + 1)]
  refine Finset.sum_congr rfl fun h _ => ?_
  have hh : h.val < 8 := h.isLt
  have hk : t.val - 7 + h.val < cfg2.N := lt_of_lt_of_eq (by omega) N_2.symm
  have e1 : 8 * ((t.val - 7 + h.val) / 24) + (t.val - 7 + h.val) % 8 = 8 * b.val + h.val := by omega
  have e2 : 768 * ((t.val - 7 + h.val) / 8 % 3) + r.val = n.val := by omega
  have e3 : (t.val - 7 + h.val) % 8 = h.val := by omega
  unfold ptTerm
  rw [dif_pos hk]
  unfold pointTerm
  refine Finset.sum_congr rfl fun e _ => ?_
  refine congrArg₂ (· * ·) (Finset.sum_congr rfl fun d _ => congrArg₂ (· * ·) (congrArg (arrQ V c) ?_) (congrArg (arrKV V c) ?_))
    (congrArg (arrWH V c) ?_)
  · exact ix3_congr (Fin.ext e1) (Fin.ext e2) rfl
  · exact ix3_congr (Fin.ext e1) rfl rfl
  · exact ix3_congr (Fin.ext e3) rfl rfl

/-- What a point with h = 7 writes back is its block of the fused last stage of the four input arrays. -/
theorem flushed_eq (t : Fin cfg2.N) (hf : (cfg2.win 4).flush t = true) :
    (dat2 (F := Ideal) V c).flushed 4 t
      = ((cfg2.win 4).blk t).view.read (Elt Ideal) (Cert.Spec.fused (arrQ V c) (arrKV V c) (arrWH V c) (arrB V c)) := by
  have h7 : t.val % 8 = 7 := (flush2_4 t).mp hf
  have ht := t_lt t
  show (cfg2.win 4).cut (grid2.coords t) ((dat2 (F := Ideal) V c).after 4 t) = _
  rw [after2_4]
  funext j
  obtain ⟨u, r, cc, rfl⟩ : ∃ (u : Fin 1) (r : Fin 768) (cc : Fin 512), j = ix3 u r cc := ⟨j 0, j 1, j 2, eq_ix3 j⟩
  show blkOut V c t.val t.isLt (ix3 u r cc)
      = Cert.Spec.fused (arrQ V c) (arrKV V c) (arrWH V c) (arrB V c) (((cfg2.win 4).blk t).view.emb (ix3 u r cc))
  refine (outsAt_eq V c t.val t.isLt u r cc).trans ?_
  rw [if_pos h7]
  obtain ⟨-, -, -, -, -, -, -, -, -, -, e0, e1, e2⟩ := idx_facts t
  have hemb : ((cfg2.win 4).blk t).view.emb (ix3 u r cc)
      = ix3 (⟨t.val / 24, by omega⟩ : Fin 4) (⟨768 * (t.val / 8 % 3) + r.val, by omega⟩ : Fin 2304) cc := by
    funext a; apply Fin.ext
    match a with
    | ⟨0, _⟩ => show win2_4.index t (0 : Fin 3) * 1 + 1 * u.val = t.val / 24; omega
    | ⟨1, _⟩ => show win2_4.index t (1 : Fin 3) * 768 + 1 * r.val = 768 * (t.val / 8 % 3) + r.val; omega
    | ⟨2, _⟩ => show win2_4.index t (2 : Fin 3) * 512 + 1 * cc.val = cc.val; omega
  rw [hemb]
  show _ = Cert.Spec.fusedAt (arrQ V c) (arrKV V c) (arrWH V c) (arrB V c) (⟨t.val / 24, by omega⟩ : Fin 4)
      (⟨768 * (t.val / 8 % 3) + r.val, by omega⟩ : Fin 2304) cc
  unfold Cert.Spec.fusedAt
  exact congrArg₂ (· + ·) (runSum_last V c t h7 r cc ⟨t.val / 24, by omega⟩ ⟨768 * (t.val / 8 % 3) + r.val, by omega⟩ rfl rfl) rfl

/-- An index of the output array is in point t's block iff each coordinate is in the block's range on its axis. -/
theorem mem_blk (t : Fin cfg2.N) (i : S4x2304x512.Idx) :
    i ∈ ((cfg2.win 4).blk t).view.set ↔ ∀ a : Fin 3, win2_4.index t a * S1x768x512.size a ≤ (i a).val ∧ (i a).val < win2_4.index t a * S1x768x512.size a + S1x768x512.size a := by
  show i ∈ ((View.whole main_v20).slice (win2_4.rect t)).set ↔ _
  rw [View.set_slice_whole, Rect.mem_set_unit]
  exact Iff.rfl

/-- Every entry (b, n, c) of the output array lies in the block written back after the last point of the run (b, n / 768). -/
theorem cover (i : S4x2304x512.Idx) : ∃ t : Fin cfg2.N, (cfg2.win 4).flush t = true ∧ i ∈ ((cfg2.win 4).blk t).view.set := by
  have hi0 : (i 0).val < 4 := (i 0).isLt
  have hi1 : (i 1).val < 2304 := (i 1).isLt
  have hi2 : (i 2).val < 512 := (i 2).isLt
  let t : Fin cfg2.N := ⟨24 * (i 0).val + 8 * ((i 1).val / 768) + 7, lt_of_lt_of_eq (by omega) N_2.symm⟩
  have htv : t.val = 24 * (i 0).val + 8 * ((i 1).val / 768) + 7 := rfl
  obtain ⟨-, -, -, -, -, -, -, -, -, -, e0, e1, e2⟩ := idx_facts t
  refine ⟨t, (flush2_4 t).mpr (by omega), ?_⟩
  rw [mem_blk]
  intro a
  match a with
  | ⟨0, _⟩ => show win2_4.index t (0 : Fin 3) * 1 ≤ (i 0).val ∧ (i 0).val < win2_4.index t (0 : Fin 3) * 1 + 1; omega
  | ⟨1, _⟩ => show win2_4.index t (1 : Fin 3) * 768 ≤ (i 1).val ∧ (i 1).val < win2_4.index t (1 : Fin 3) * 768 + 768; omega
  | ⟨2, _⟩ => show win2_4.index t (2 : Fin 3) * 512 ≤ (i 2).val ∧ (i 2).val < win2_4.index t (2 : Fin 3) * 512 + 512; omega

end Blocks

/-- THE VALUE OF THE REGION: its output array ends at the fused last stage of the four arrays it reads. -/
theorem value (V : (c : Dev nD) → (b : Ref sig .tc) → Buf (Elt Ideal) ((c : Thread nD τ).loc b)) (c : Dev nD)
    (Q : Cert.Spec.Arr3 32 2304 64) (KV : Cert.Spec.Arr3 32 64 64) (WH : Cert.Spec.Arr3 8 512 64) (bo : Cert.Spec.Arr1 512)
    (hQ : (V c main_v10 : S32x2304x64.Idx → EReal) = Q) (hKV : (V c main_v17 : S32x64x64.Idx → EReal) = KV)
    (hWH : (V c main_v19 : S8x512x64.Idx → EReal) = WH) (hbo : (V c main_arg4 : S512.Idx → EReal) = bo) :
    ((Gen.dat2 (F := Ideal) V c).arrAt 4 cfg2.N : S4x2304x512.Idx → EReal) = Cert.Spec.fused Q KV WH bo := by
  subst hQ hKV hWH hbo
  exact (Gen.dat2 (F := Ideal) V c).arrAt_eq_of_cover 4
    (Cert.Spec.fused (arrQ V c) (arrKV V c) (arrWH V c) (arrB V c)) (fun t hf => flushed_eq V c t hf) cover

end Cert.KernelIdeal.Region2
end
-- ==== Proof.HostGlue.lean ====
/-
  The host operations between the three regions of the kernel's @main, read at an index.

  Each stretch is a short line of layout operations (and two changes of float format, which are the identity on
  extended reals). For an ARBITRARY valuation W of the buffers before a stretch, the buffers it writes hold
  afterwards the plain-array functions of the specification applied to W's buffers, and the buffers it does not
  write hold what they held:
    first stretch  : x with its two leading axes merged (`Spec.rows`); the two weights unchanged as extended reals;
    second stretch : the three chunks of 768 tokens of y, each flat-reshaped to [4, 2304, 8, 64] and read head-major
                     as [32, 2304, 64] (`Spec.heads`);
    third stretch  : the output weight cut into 8 heads of 64 columns, heads first (`Spec.woutHeads`).
  A reshape keeps the row-major position, a slice shifts one coordinate by its offset, a transpose permutes the
  coordinates: each chain is followed coordinate by coordinate from the result's index to the operand's, and the
  arithmetic of positions is linear with division and remainder by literals.
-/
import proofs.«101738_j19086834664148_2_alg».proof.Proof.Spec
import proofs.«101738_j19086834664148_2_alg».proof.Proof.Gen.KernelIdeal.Launch
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.HostGlue

open Idealize.ShloMosaic Idealize.ShloMosaic.TcCoe Idealize.SL.Sem Cert.KernelIdeal Cert.KernelIdeal.Gen
open Idealize.ShloMosaic.StableHlo Idealize.ShloMosaic.ValueIdx

/-! ## Untouched buffers -/

/-- A buffer none of a stretch's operations writes holds after the stretch what it held before. -/
local macro "not_written" : tactic =>
  `(tactic| (refine StableHlo.after_of_forall_not_mem _ _ (List.forall_iff_forall_mem.mp ?_)
             simp only [hostOps0, hostOps1, hostOps2, List.Forall, StableHlo.unary_writes, StableHlo.reshape_writes,
               Finset.mem_singleton]
             repeat' apply And.intro
             all_goals exact StableHlo.devRef_ne_of_ne (by decide)))

/-! ## The first stretch: two changes of float format (the identity on extended reals) and the merge of x's two leading axes -/

theorem ops0_v0 (W : Valuation τ sig (Elt Ideal)) : (StableHlo.after (hostOps0 (F := Ideal)) W (Proc.devRef .tc main_v0) : S1536x512.Idx → EReal) = W (Proc.devRef .tc main_arg1) := by
  after_results
  rfl

theorem ops0_v1 (W : Valuation τ sig (Elt Ideal)) : (StableHlo.after (hostOps0 (F := Ideal)) W (Proc.devRef .tc main_v1) : S512x512.Idx → EReal) = W (Proc.devRef .tc main_arg3) := by
  after_results
  rfl

/-- Merging the two leading axes: row r of [9216, 512] is token r % 2304 of batch r / 2304. -/
theorem rows_apply {α : Type} (x : S4x2304x512.Idx → α) (r : Fin 9216) (k : Fin 512) (b : Fin 4) (t : Fin 2304)
    (hb : b.val = r.val / 2304) (ht : t.val = r.val % 2304) :
    shapeCast S9216x512 x shapeCasts_S4x2304x512_S9216x512 (ix2 r k) = x (ix3 b t k) :=
  shapeCast_apply x shapeCasts_S4x2304x512_S9216x512 (ix2 r k) (ix3 b t k)
    (by rw [Shape.rowMajor_val_three, Shape.rowMajor_val_two]
        show (b.val * 2304 + t.val) * 512 + k.val = r.val * 512 + k.val
        omega)

theorem ops0_v2 (W : Valuation τ sig (Elt Ideal)) : (StableHlo.after (hostOps0 (F := Ideal)) W (Proc.devRef .tc main_v2) : S9216x512.Idx → EReal) = Cert.Spec.rows (W (Proc.devRef .tc main_arg0)) := by
  have e : (StableHlo.after (hostOps0 (F := Ideal)) W (Proc.devRef .tc main_v2) : S9216x512.Idx → EReal)
      = shapeCast S9216x512 (W (Proc.devRef .tc main_arg0) : S4x2304x512.Idx → EReal) shapeCasts_S4x2304x512_S9216x512 := by
    after_results
    rfl
  rw [e]
  funext i
  obtain ⟨r, k, rfl⟩ : ∃ (r : Fin 9216) (k : Fin 512), i = ix2 r k := ⟨i 0, i 1, eq_ix2 i⟩
  exact rows_apply _ r k _ _ rfl rfl

theorem ops0_arg2 (W : Valuation τ sig (Elt Ideal)) : StableHlo.after (hostOps0 (F := Ideal)) W (Proc.devRef .tc main_arg2) = W (Proc.devRef .tc main_arg2) := by
  not_written

theorem ops0_arg4 (W : Valuation τ sig (Elt Ideal)) : StableHlo.after (hostOps0 (F := Ideal)) W (Proc.devRef .tc main_arg4) = W (Proc.devRef .tc main_arg4) := by
  not_written

/-! ## The second stretch: y cut into three chunks of 768 tokens, each read head-major -/

/-- One chunk's chain of layout operations: y as [4, 2304, 1536], the 768 tokens from offset `o`, flat-reshaped to
    [4, 2304, 8, 64], heads before tokens, the two leading axes merged. -/
def headChain {α : Type} (y : S9216x1536.Idx → α) (o : ℕ) (hs : S4x2304x1536.Slices ![0, o, 0] S4x768x1536) :
    S32x2304x64.Idx → α :=
  shapeCast S32x2304x64
    (transpose S4x8x2304x64 [0, 2, 1, 3]
      (shapeCast S4x2304x8x64
        (extractStridedSlice S4x768x1536 ![0, o, 0]
          (shapeCast S4x2304x1536 y shapeCasts_S9216x1536_S4x2304x1536) hs)
        shapeCasts_S4x768x1536_S4x2304x8x64)
      transposes_S4x2304x8x64_S4x8x2304x64_0_2_1_3)
    shapeCasts_S4x8x2304x64_S32x2304x64

/-- Entry (8b + h, n, d) of the chunk at token offset `o` is y at row 2304·b + o + p / 1536 and column p % 1536,
    where p = 512·n + 64·h + d is the entry's position inside the chunk of batch b. -/
theorem headChain_apply {α : Type} (y : S9216x1536.Idx → α) (o : ℕ) (ho : o ≤ 1536)
    (hs : S4x2304x1536.Slices ![0, o, 0] S4x768x1536)
    (bh : Fin 32) (n : Fin 2304) (d : Fin 64) (r : Fin 9216) (c : Fin 1536)
    (hr : r.val = 2304 * (bh.val / 8) + o + (512 * n.val + 64 * (bh.val % 8) + d.val) / 1536)
    (hc : c.val = (512 * n.val + 64 * (bh.val % 8) + d.val) % 1536) :
    headChain y o hs (ix3 bh n d) = y (ix2 r c) := by
  have hbh := bh.isLt
  have hn := n.isLt
  have hd := d.isLt
  -- the coordinates along the chain
  let b : Fin 4 := ⟨bh.val / 8, by omega⟩
  let h : Fin 8 := ⟨bh.val % 8, by omega⟩
  let q : Fin 768 := ⟨(512 * n.val + 64 * (bh.val % 8) + d.val) / 1536, by omega⟩
  let t : Fin 2304 := ⟨o + (512 * n.val + 64 * (bh.val % 8) + d.val) / 1536, by omega⟩
  unfold headChain
  -- [4, 8, 2304, 64] → [32, 2304, 64]
  refine (shapeCast_apply _ shapeCasts_S4x8x2304x64_S32x2304x64 (ix3 bh n d) (ix4 b h n d)
    (by rw [Shape.rowMajor_val_four, Shape.rowMajor_val_three]
        show (((bh.val / 8) * 8 + bh.val % 8) * 2304 + n.val) * 64 + d.val = (bh.val * 2304 + n.val) * 64 + d.val
        omega)).trans ?_
  -- heads before tokens
  refine (transpose_apply [0, 2, 1, 3] _ transposes_S4x2304x8x64_S4x8x2304x64_0_2_1_3 (ix4 b h n d) (ix4 b n h d)
    (fun a => match a with
      | ⟨0, _⟩ => rfl
      | ⟨1, _⟩ => rfl
      | ⟨2, _⟩ => rfl
      | ⟨3, _⟩ => rfl)).trans ?_
  -- [4, 768, 1536] → [4, 2304, 8, 64]
  refine (shapeCast_apply _ shapeCasts_S4x768x1536_S4x2304x8x64 (ix4 b n h d) (ix3 b q c)
    (by rw [Shape.rowMajor_val_three, Shape.rowMajor_val_four]
        show ((bh.val / 8) * 768 + (512 * n.val + 64 * (bh.val % 8) + d.val) / 1536) * 1536 + c.val
          = ((((bh.val / 8) * 2304 + n.val) * 8 + bh.val % 8) * 64 + d.val)
        omega)).trans ?_
  -- the 768 tokens from offset o
  refine (extractStridedSlice_apply ![0, o, 0] _ hs (ix3 b q c) (ix3 b t c)
    (fun a => match a with
      | ⟨0, _⟩ => by show bh.val / 8 = 0 + bh.val / 8; omega
      | ⟨1, _⟩ => by
          show o + (512 * n.val + 64 * (bh.val % 8) + d.val) / 1536 = o + (512 * n.val + 64 * (bh.val % 8) + d.val) / 1536
          rfl
      | ⟨2, _⟩ => by show c.val = 0 + c.val; omega)).trans ?_
  -- [9216, 1536] → [4, 2304, 1536]
  exact shapeCast_apply y shapeCasts_S9216x1536_S4x2304x1536 (ix3 b t c) (ix2 r c)
    (by rw [Shape.rowMajor_val_two, Shape.rowMajor_val_three]
        show r.val * 1536 + c.val
          = ((bh.val / 8) * 2304 + (o + (512 * n.val + 64 * (bh.val % 8) + d.val) / 1536)) * 1536 + c.val
        omega)

/-- The chain at token offset 768·s is chunk s of the specification. -/
theorem headChain_eq_heads (y : S9216x1536.Idx → EReal) (s : Fin 3)
    (hs : S4x2304x1536.Slices ![0, 768 * s.val, 0] S4x768x1536) :
    headChain y (768 * s.val) hs = Cert.Spec.heads y s := by
  funext i
  obtain ⟨bh, n, d, rfl⟩ : ∃ (bh : Fin 32) (n : Fin 2304) (d : Fin 64), i = ix3 bh n d := ⟨i 0, i 1, i 2, eq_ix3 i⟩
  have hs' := s.isLt
  exact headChain_apply y (768 * s.val) (by omega) hs bh n d _ _ rfl rfl

theorem ops1_v10 (W : Valuation τ sig (Elt Ideal)) : (StableHlo.after (hostOps1 (F := Ideal)) W (Proc.devRef .tc main_v10) : S32x2304x64.Idx → EReal) = Cert.Spec.heads (W (Proc.devRef .tc main_v3)) 0 := by
  have e : (StableHlo.after (hostOps1 (F := Ideal)) W (Proc.devRef .tc main_v10) : S32x2304x64.Idx → EReal)
      = headChain (W (Proc.devRef .tc main_v3) : S9216x1536.Idx → EReal) (768 * (0 : Fin 3).val)
          slices_S4x2304x1536_S4x768x1536_0_0_0 := by
    after_results
    rfl
  rw [e]
  exact headChain_eq_heads _ 0 _

theorem ops1_v13 (W : Valuation τ sig (Elt Ideal)) : (StableHlo.after (hostOps1 (F := Ideal)) W (Proc.devRef .tc main_v13) : S32x2304x64.Idx → EReal) = Cert.Spec.heads (W (Proc.devRef .tc main_v3)) 1 := by
  have e : (StableHlo.after (hostOps1 (F := Ideal)) W (Proc.devRef .tc main_v13) : S32x2304x64.Idx → EReal)
      = headChain (W (Proc.devRef .tc main_v3) : S9216x1536.Idx → EReal) (768 * (1 : Fin 3).val)
          slices_S4x2304x1536_S4x768x1536_0_768_0 := by
    after_results
    rfl
  rw [e]
  exact headChain_eq_heads _ 1 _

theorem ops1_v16 (W : Valuation τ sig (Elt Ideal)) : (StableHlo.after (hostOps1 (F := Ideal)) W (Proc.devRef .tc main_v16) : S32x2304x64.Idx → EReal) = Cert.Spec.heads (W (Proc.devRef .tc main_v3)) 2 := by
  have e : (StableHlo.after (hostOps1 (F := Ideal)) W (Proc.devRef .tc main_v16) : S32x2304x64.Idx → EReal)
      = headChain (W (Proc.devRef .tc main_v3) : S9216x1536.Idx → EReal) (768 * (2 : Fin 3).val)
          slices_S4x2304x1536_S4x768x1536_0_1536_0 := by
    after_results
    rfl
  rw [e]
  exact headChain_eq_heads _ 2 _

theorem ops1_v1 (W : Valuation τ sig (Elt Ideal)) : StableHlo.after (hostOps1 (F := Ideal)) W (Proc.devRef .tc main_v1) = W (Proc.devRef .tc main_v1) := by
  not_written

theorem ops1_arg4 (W : Valuation τ sig (Elt Ideal)) : StableHlo.after (hostOps1 (F := Ideal)) W (Proc.devRef .tc main_arg4) = W (Proc.devRef .tc main_arg4) := by
  not_written

/-! ## The third stretch: the output weight cut into heads -/

/-- w_out's columns split as 8 heads of 64, heads first: entry (h, c, e) is w_out[c, 64·h + e]. -/
theorem woutChain_apply {α : Type} (w : S512x512.Idx → α) (h : Fin 8) (c : Fin 512) (e : Fin 64) (j : Fin 512)
    (hj : j.val = 64 * h.val + e.val) :
    transpose S8x512x64 [1, 0, 2] (shapeCast S512x8x64 w shapeCasts_S512x512_S512x8x64)
        transposes_S512x8x64_S8x512x64_1_0_2 (ix3 h c e) = w (ix2 c j) := by
  have hh := h.isLt
  have he := e.isLt
  refine (transpose_apply [1, 0, 2] _ transposes_S512x8x64_S8x512x64_1_0_2 (ix3 h c e) (ix3 c h e)
    (fun a => match a with
      | ⟨0, _⟩ => rfl
      | ⟨1, _⟩ => rfl
      | ⟨2, _⟩ => rfl)).trans ?_
  exact shapeCast_apply w shapeCasts_S512x512_S512x8x64 (ix3 c h e) (ix2 c j)
    (by rw [Shape.rowMajor_val_two, Shape.rowMajor_val_three]
        show c.val * 512 + j.val = (c.val * 8 + h.val) * 64 + e.val
        omega)

theorem ops2_v19 (W : Valuation τ sig (Elt Ideal)) : (StableHlo.after (hostOps2 (F := Ideal)) W (Proc.devRef .tc main_v19) : S8x512x64.Idx → EReal) = Cert.Spec.woutHeads (W (Proc.devRef .tc main_v1)) := by
  have e : (StableHlo.after (hostOps2 (F := Ideal)) W (Proc.devRef .tc main_v19) : S8x512x64.Idx → EReal)
      = transpose S8x512x64 [1, 0, 2]
          (shapeCast S512x8x64 (W (Proc.devRef .tc main_v1) : S512x512.Idx → EReal) shapeCasts_S512x512_S512x8x64)
          transposes_S512x8x64_S8x512x64_1_0_2 := by
    after_results
    rfl
  rw [e]
  funext i
  obtain ⟨h, c, e', rfl⟩ : ∃ (h : Fin 8) (c : Fin 512) (e' : Fin 64), i = ix3 h c e' := ⟨i 0, i 1, i 2, eq_ix3 i⟩
  exact woutChain_apply _ h c e' _ rfl

theorem ops2_v10 (W : Valuation τ sig (Elt Ideal)) : StableHlo.after (hostOps2 (F := Ideal)) W (Proc.devRef .tc main_v10) = W (Proc.devRef .tc main_v10) := by
  not_written

theorem ops2_v17 (W : Valuation τ sig (Elt Ideal)) : StableHlo.after (hostOps2 (F := Ideal)) W (Proc.devRef .tc main_v17) = W (Proc.devRef .tc main_v17) := by
  not_written

theorem ops2_arg4 (W : Valuation τ sig (Elt Ideal)) : StableHlo.after (hostOps2 (F := Ideal)) W (Proc.devRef .tc main_arg4) = W (Proc.devRef .tc main_arg4) := by
  not_written

end Cert.KernelIdeal.HostGlue

end
-- ==== Proof.Chain.lean ====
/-
  What the last boundary's contents hold for the result array, read back region by region.
  Region 2 leaves `fused q kv wh b_out` of what it finds in its four input arrays; its q is what the second host
  stretch made of region 0's result (`heads y 0`), its kv is region 1's result `kvArr (heads y 1) (heads y 2)`,
  its wh is the third host stretch's re-cut of w_out, and y is region 0's `linear (rows x) w_in b_in`. No later
  segment overwrites a buffer an earlier one wrote, so each read walks back through the untouched stretches.
-/
import proofs.«101738_j19086834664148_2_alg».proof.Proof.KernelRun
import proofs.«101738_j19086834664148_2_alg».proof.Proof.Region0
import proofs.«101738_j19086834664148_2_alg».proof.Proof.Region1
import proofs.«101738_j19086834664148_2_alg».proof.Proof.Region2
import proofs.«101738_j19086834664148_2_alg».proof.Proof.HostGlue

noncomputable section

namespace Cert.KernelIdeal.Chain

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

/-- The launch contents of an argument buffer. -/
theorem W0_arg (c : Dev nD) (b : Ref sig .tc) : W0 m ρ c (Proc.devRef .tc b) = m ((c : Thread nD τ).loc b) := rfl

/-- Region 0's result: y = x·w_inᵀ + b_in over the merged rows. -/
theorem y_eq (c : Dev nD) :
    (W2 m ρ c (Proc.devRef .tc main_v3) : S9216x1536.Idx → EReal)
      = Cert.Spec.linear (Cert.Spec.rows (m ((c : Thread nD τ).loc main_arg0))) (m ((c : Thread nD τ).loc main_arg1)) (m ((c : Thread nD τ).loc main_arg2)) := by
  refine (W2_arr m ρ c 3).trans ?_
  exact Region0.value (V1 m ρ) c _ _ _ (HostGlue.ops0_v2 (W0 m ρ c)) (HostGlue.ops0_v0 (W0 m ρ c))
    (HostGlue.ops0_arg2 (W0 m ρ c))

/-- The head arrays region 1 and region 2 find: chunk s of y, head-major. -/
theorem v13_eq (c : Dev nD) :
    (W3 m ρ c (Proc.devRef .tc main_v13) : S32x2304x64.Idx → EReal) = Cert.Spec.heads (W2 m ρ c (Proc.devRef .tc main_v3)) 1 :=
  HostGlue.ops1_v13 (W2 m ρ c)
theorem v16_eq (c : Dev nD) :
    (W3 m ρ c (Proc.devRef .tc main_v16) : S32x2304x64.Idx → EReal) = Cert.Spec.heads (W2 m ρ c (Proc.devRef .tc main_v3)) 2 :=
  HostGlue.ops1_v16 (W2 m ρ c)

/-- Region 1's result. -/
theorem kv_eq (c : Dev nD) :
    (W4 m ρ c (Proc.devRef .tc main_v17) : S32x64x64.Idx → EReal)
      = Cert.Spec.kvArr (Cert.Spec.heads (W2 m ρ c (Proc.devRef .tc main_v3)) 1) (Cert.Spec.heads (W2 m ρ c (Proc.devRef .tc main_v3)) 2) := by
  refine (W4_arr m ρ c 2).trans ?_
  exact Region1.value (V3 m ρ) c _ _ (v13_eq m ρ c) (v16_eq m ρ c)

/-- q as region 2 finds it: written by the second host stretch, untouched by region 1 and the third stretch. -/
theorem q_eq (c : Dev nD) :
    (W5 m ρ c (Proc.devRef .tc main_v10) : S32x2304x64.Idx → EReal) = Cert.Spec.heads (W2 m ρ c (Proc.devRef .tc main_v3)) 0 := by
  refine (HostGlue.ops2_v10 (W4 m ρ c)).trans ?_
  refine (W4_of_ne m ρ c main_v10 (by decide)).trans ?_
  exact HostGlue.ops1_v10 (W2 m ρ c)

/-- kv as region 2 finds it. -/
theorem kv5_eq (c : Dev nD) :
    (W5 m ρ c (Proc.devRef .tc main_v17) : S32x64x64.Idx → EReal)
      = Cert.Spec.kvArr (Cert.Spec.heads (W2 m ρ c (Proc.devRef .tc main_v3)) 1) (Cert.Spec.heads (W2 m ρ c (Proc.devRef .tc main_v3)) 2) :=
  (HostGlue.ops2_v17 (W4 m ρ c)).trans (kv_eq m ρ c)

/-- w_out cut into heads, as region 2 finds it: the bf16 copy of w_out made by the first stretch is untouched until
    the third stretch re-cuts it. -/
theorem wh_eq (c : Dev nD) :
    (W5 m ρ c (Proc.devRef .tc main_v19) : S8x512x64.Idx → EReal) = Cert.Spec.woutHeads (m ((c : Thread nD τ).loc main_arg3)) := by
  refine (HostGlue.ops2_v19 (W4 m ρ c)).trans ?_
  refine congrArg Cert.Spec.woutHeads ?_
  refine (W4_of_ne m ρ c main_v1 (by decide)).trans ?_
  refine (HostGlue.ops1_v1 (W2 m ρ c)).trans ?_
  refine (W2_of_ne m ρ c main_v1 (by decide)).trans ?_
  exact HostGlue.ops0_v1 (W0 m ρ c)

/-- b_out as region 2 finds it: never written. -/
theorem bo_eq (c : Dev nD) :
    (W5 m ρ c (Proc.devRef .tc main_arg4) : S512.Idx → EReal) = m ((c : Thread nD τ).loc main_arg4) := by
  refine (HostGlue.ops2_arg4 (W4 m ρ c)).trans ?_
  refine (W4_of_ne m ρ c main_arg4 (by decide)).trans ?_
  refine (HostGlue.ops1_arg4 (W2 m ρ c)).trans ?_
  refine (W2_of_ne m ρ c main_arg4 (by decide)).trans ?_
  exact HostGlue.ops0_arg4 (W0 m ρ c)

/-- The result array after the last region is the specification's `kernelOut` of the five argument arrays. -/
theorem result (c : Dev nD) :
    (W6 m ρ c (Proc.devRef .tc main_v20) : S4x2304x512.Idx → EReal)
      = Cert.Spec.kernelOut (m ((c : Thread nD τ).loc main_arg0)) (m ((c : Thread nD τ).loc main_arg1))
          (m ((c : Thread nD τ).loc main_arg2)) (m ((c : Thread nD τ).loc main_arg3)) (m ((c : Thread nD τ).loc main_arg4)) := by
  refine (W6_arr m ρ c 4).trans ?_
  refine (Region2.value (V5 m ρ) c _ _ _ _ (q_eq m ρ c) (kv5_eq m ρ c) (wh_eq m ρ c) (bo_eq m ρ c)).trans ?_
  unfold Cert.Spec.kernelOut
  rw [y_eq m ρ c]

end Cert.KernelIdeal.Chain

end
-- ==== Proof.RefValueHeads.lean ====
import proofs.«101738_j19086834664148_2_alg».proof.Proof.Gen.ReferenceIdeal.Read
import proofs.«101738_j19086834664148_2_alg».proof.Proof.Spec

/-! # The reference's projection and its three head arrays, read at an index

The reference computes y[b, n, f] = Σ_k x[b, n, k] · w[f, k] + bi[f], cuts the token axis of y into three
chunks of 768 tokens, flat-reshapes each chunk [768, 1536] → [2304, 8, 64] within a batch and transposes it
to [4, 8, 2304, 64]. Entry (b, h, n, d) of chunk s therefore sits at position p = 512·n + 64·h + d of the
chunk of batch b, i.e. at token 768·s + p / 1536 and column p % 1536 of y. -/

noncomputable section

namespace Cert.ReferenceIdeal.RefValue

open Idealize.ShloMosaic Idealize.ShloMosaic.ValueIdx Cert.ReferenceIdeal Cert.ReferenceIdeal.Read
open scoped BigOperators

/-- The projection plus bias at an index whose coordinates are (b, n, f) is the specification's
    linear map at row 2304·b + n and column f. -/
theorem proj_at (x : Cert.Spec.Arr3 4 2304 512) (w : Cert.Spec.Arr2 1536 512) (bi : Cert.Spec.Arr1 1536)
    (I : S4x2304x1536.Idx) (r : Fin 9216) (f : Fin 1536)
    (hr : r.val = 2304 * (I 0).val + (I 1).val) (hf : f.val = (I 2).val) :
    val_main_v3 (F := Ideal) x w bi I = Cert.Spec.linearAt (Cert.Spec.rows x) w bi r f := by
  rw [val_main_v3_apply, val_main_v0_apply, val_main_v2_apply, val_main_v1_apply]
  unfold Cert.Spec.linearAt
  simp only [Ideal.addf_def]
  have h0 : (I 0).val < 4 := (I 0).isLt
  have h1 : (I 1).val < 2304 := (I 1).isLt
  refine congrArg₂ (· + ·) (Finset.sum_congr rfl fun k _ => ?_) ?_
  · refine congrArg₂ (· * ·) ?_ ?_
    · show x _ = x _
      refine congrArg x (funext fun a => ?_)
      match a with
      | ⟨0, _⟩ => exact Fin.ext (by show (I 0).val = r.val / 2304; omega)
      | ⟨1, _⟩ => exact Fin.ext (by show (I 1).val = r.val % 2304; omega)
      | ⟨2, _⟩ => rfl
    · refine congrArg w (funext fun a => ?_)
      match a with
      | ⟨0, _⟩ => exact Fin.ext (by show (I 2).val = f.val; omega)
      | ⟨1, _⟩ => rfl
  · refine congrArg bi (funext fun a => ?_)
    match a with
    | ⟨0, _⟩ => exact Fin.ext (by show (I 2).val = f.val; omega)

/-- Chunk 0 of the token axis, reshaped and transposed, at (b, h, n, d), is the specification's head array
    of chunk 0 at (8·b + h, n, d). -/
theorem q_at (x : Cert.Spec.Arr3 4 2304 512) (w : Cert.Spec.Arr2 1536 512) (bi : Cert.Spec.Arr1 1536)
    (b : Fin 4) (h : Fin 8) (n : Fin 2304) (d : Fin 64) (bh : Fin 32) (hbh : bh.val = 8 * b.val + h.val) :
    val_main_v8 (F := Ideal) x w bi (ix4 b h n d)
      = Cert.Spec.headsAt (Cert.Spec.linear (Cert.Spec.rows x) w bi) 0 bh n d := by
  rw [val_main_v8_apply, val_main_v7_apply, val_main_v4_apply]
  unfold Cert.Spec.headsAt
  have hb := b.isLt
  have hh := h.isLt
  have hn := n.isLt
  have hd := d.isLt
  refine proj_at x w bi _ _ _ ?_ ?_
  · show 2304 * (bh.val / 8) + 768 * 0 + (512 * n.val + 64 * (bh.val % 8) + d.val) / 1536
      = 2304 * ((((b.val * 2304 + n.val) * 8 + h.val) * 64 + d.val) / 1179648)
        + ((((b.val * 2304 + n.val) * 8 + h.val) * 64 + d.val) / 1536 % 768)
    omega
  · show (512 * n.val + 64 * (bh.val % 8) + d.val) % 1536
      = (((b.val * 2304 + n.val) * 8 + h.val) * 64 + d.val) % 1536
    omega

/-- Chunk 1 of the token axis, reshaped and transposed, at (b, h, n, d), is the specification's head array
    of chunk 1 at (8·b + h, n, d). -/
theorem k_at (x : Cert.Spec.Arr3 4 2304 512) (w : Cert.Spec.Arr2 1536 512) (bi : Cert.Spec.Arr1 1536)
    (b : Fin 4) (h : Fin 8) (n : Fin 2304) (d : Fin 64) (bh : Fin 32) (hbh : bh.val = 8 * b.val + h.val) :
    val_main_v10 (F := Ideal) x w bi (ix4 b h n d)
      = Cert.Spec.headsAt (Cert.Spec.linear (Cert.Spec.rows x) w bi) 1 bh n d := by
  rw [val_main_v10_apply, val_main_v9_apply, val_main_v5_apply]
  unfold Cert.Spec.headsAt
  have hb := b.isLt
  have hh := h.isLt
  have hn := n.isLt
  have hd := d.isLt
  refine proj_at x w bi _ _ _ ?_ ?_
  · show 2304 * (bh.val / 8) + 768 * 1 + (512 * n.val + 64 * (bh.val % 8) + d.val) / 1536
      = 2304 * ((((b.val * 2304 + n.val) * 8 + h.val) * 64 + d.val) / 1179648)
        + (768 + (((b.val * 2304 + n.val) * 8 + h.val) * 64 + d.val) / 1536 % 768)
    omega
  · show (512 * n.val + 64 * (bh.val % 8) + d.val) % 1536
      = (((b.val * 2304 + n.val) * 8 + h.val) * 64 + d.val) % 1536
    omega

/-- Chunk 2 of the token axis, reshaped and transposed, at (b, h, n, d), is the specification's head array
    of chunk 2 at (8·b + h, n, d). -/
theorem v_at (x : Cert.Spec.Arr3 4 2304 512) (w : Cert.Spec.Arr2 1536 512) (bi : Cert.Spec.Arr1 1536)
    (b : Fin 4) (h : Fin 8) (n : Fin 2304) (d : Fin 64) (bh : Fin 32) (hbh : bh.val = 8 * b.val + h.val) :
    val_main_v12 (F := Ideal) x w bi (ix4 b h n d)
      = Cert.Spec.headsAt (Cert.Spec.linear (Cert.Spec.rows x) w bi) 2 bh n d := by
  rw [val_main_v12_apply, val_main_v11_apply, val_main_v6_apply]
  unfold Cert.Spec.headsAt
  have hb := b.isLt
  have hh := h.isLt
  have hn := n.isLt
  have hd := d.isLt
  refine proj_at x w bi _ _ _ ?_ ?_
  · show 2304 * (bh.val / 8) + 768 * 2 + (512 * n.val + 64 * (bh.val % 8) + d.val) / 1536
      = 2304 * ((((b.val * 2304 + n.val) * 8 + h.val) * 64 + d.val) / 1179648)
        + (1536 + (((b.val * 2304 + n.val) * 8 + h.val) * 64 + d.val) / 1536 % 768)
    omega
  · show (512 * n.val + 64 * (bh.val % 8) + d.val) % 1536
      = (((b.val * 2304 + n.val) * 8 + h.val) * 64 + d.val) % 1536
    omega

end Cert.ReferenceIdeal.RefValue

end
-- ==== Proof.RefValue.lean ====
import proofs.«101738_j19086834664148_2_alg».proof.Proof.RefValueHeads

/-! # The reference's last stage is the specification's reference form

With q, k, v the three head arrays [4, 8, 2304, 64], the reference computes
  scores[b, h, n, m] = (Σ_d q[b, h, n, d] · k[b, h, m, d]) / 8,
  o[b, h, n, e]      = Σ_m scores[b, h, n, m] · v[b, h, m, e],
transposes o to [4, 2304, 8, 64], merges the last two axes (column j = 64·h + e, so h = j / 64 and
e = j % 64), and applies the output projection out[b, n, c] = Σ_j o'[b, n, j] · w_out[c, j] + b_out[c]. -/

noncomputable section

namespace Cert.ReferenceIdeal.RefValue

open Idealize.ShloMosaic Idealize.ShloMosaic.ValueIdx Cert.ReferenceIdeal Cert.ReferenceIdeal.Read
open scoped BigOperators

/-- The attention output at (b, h, n, e): the sum over the 2304 keys m of the scaled score of (n, m)
    times v at (m, e). The divisor is the broadcast f32 word of 8, left as a word. -/
theorem attn_at (x : Cert.Spec.Arr3 4 2304 512) (w : Cert.Spec.Arr2 1536 512) (bi : Cert.Spec.Arr1 1536)
    (b : Fin 4) (h : Fin 8) (n : Fin 2304) (e : Fin 64) :
    val_main_v16 (F := Ideal) x w bi (ix4 b h n e)
      = ∑ m : Fin 2304,
          Ideal.div (∑ d : Fin 64, val_main_v8 (F := Ideal) x w bi (ix4 b h n d)
                        * val_main_v10 (F := Ideal) x w bi (ix4 b h m d)) Cert.Spec.eight
            * val_main_v12 (F := Ideal) x w bi (ix4 b h m e) := by
  rw [val_main_v16_apply]
  refine Finset.sum_congr rfl fun m _ => ?_
  rw [val_main_v15_apply, val_main_v13_apply, val_main_v14_apply, val_main_cst_apply]
  simp only [Ideal.hostDivf_def, Ideal.ofBits_def]
  have er : ridx_main_v16 (ix4 b h n e) m = ix4 b h m e :=
    funext fun a => match a with | ⟨0, _⟩ => rfl | ⟨1, _⟩ => rfl | ⟨2, _⟩ => rfl | ⟨3, _⟩ => rfl
  have el : ∀ d : Fin 64, lidx_main_v13 (lidx_main_v16 (ix4 b h n e) m) d = ix4 b h n d := fun d =>
    funext fun a => match a with | ⟨0, _⟩ => rfl | ⟨1, _⟩ => rfl | ⟨2, _⟩ => rfl | ⟨3, _⟩ => rfl
  have ek : ∀ d : Fin 64, ridx_main_v13 (lidx_main_v16 (ix4 b h n e) m) d = ix4 b h m d := fun d =>
    funext fun a => match a with | ⟨0, _⟩ => rfl | ⟨1, _⟩ => rfl | ⟨2, _⟩ => rfl | ⟨3, _⟩ => rfl
  rw [er]
  refine congrArg₂ (· * ·) (congrArg₂ Ideal.div (Finset.sum_congr rfl fun d _ => ?_) rfl) rfl
  rw [el d, ek d]

/-- The reference's result is the specification's reference form of the three head arrays. -/
theorem result_eq (x : Cert.Spec.Arr3 4 2304 512) (w : Cert.Spec.Arr2 1536 512) (bi : Cert.Spec.Arr1 1536) (wout : Cert.Spec.Arr2 512 512) (bo : Cert.Spec.Arr1 512) :
    Cert.ReferenceIdeal.Read.val_main_v22 (F := Ideal) x w bi wout bo = Cert.Spec.refOut x w bi wout bo := by
  funext i
  obtain ⟨b, n, c, rfl⟩ : ∃ (b : Fin 4) (n : Fin 2304) (c : Fin 512), i = ix3 b n c :=
    ⟨i 0, i 1, i 2, eq_ix3 i⟩
  show val_main_v22 (F := Ideal) x w bi wout bo (ix3 b n c)
    = Cert.Spec.refFormAt (Cert.Spec.heads (Cert.Spec.linear (Cert.Spec.rows x) w bi) 0)
        (Cert.Spec.heads (Cert.Spec.linear (Cert.Spec.rows x) w bi) 1)
        (Cert.Spec.heads (Cert.Spec.linear (Cert.Spec.rows x) w bi) 2) wout bo b n c
  rw [val_main_v22_apply, val_main_v19_apply, val_main_v21_apply, val_main_v20_apply]
  unfold Cert.Spec.refFormAt
  simp only [Ideal.addf_def]
  have hb := b.isLt
  have hn := n.isLt
  refine congrArg₂ (· + ·) (Finset.sum_congr rfl fun j _ => ?_) ?_
  · have hj := j.isLt
    -- the merged column j of token n is head j / 64, offset j % 64
    have ei : idx_main_v17 (idx_main_v18 (lidx_main_v19 (ix3 b n c) j))
        = ix4 b (⟨j.val / 64, by omega⟩ : Fin 8) n (⟨j.val % 64, Nat.mod_lt _ (by norm_num)⟩ : Fin 64) :=
      funext fun a => match a with
        | ⟨0, _⟩ => Fin.ext (by show ((b.val * 2304 + n.val) * 512 + j.val) / 1179648 = b.val; omega)
        | ⟨1, _⟩ => Fin.ext (by show ((b.val * 2304 + n.val) * 512 + j.val) / 64 % 8 = j.val / 64; omega)
        | ⟨2, _⟩ => Fin.ext (by show ((b.val * 2304 + n.val) * 512 + j.val) / 512 % 2304 = n.val; omega)
        | ⟨3, _⟩ => Fin.ext (by show ((b.val * 2304 + n.val) * 512 + j.val) % 64 = j.val % 64; omega)
    have ew : ridx_main_v19 (ix3 b n c) j = ix2 c j :=
      funext fun a => match a with | ⟨0, _⟩ => rfl | ⟨1, _⟩ => rfl
    rw [val_main_v18_apply, val_main_v17_apply, ei, ew, attn_at]
    refine congrArg₂ (· * ·) (Finset.sum_congr rfl fun m _ => ?_) rfl
    refine congrArg₂ (· * ·) (congrArg₂ Ideal.div (Finset.sum_congr rfl fun d _ => ?_) rfl) ?_
    · rw [q_at x w bi b _ n d ⟨8 * b.val + j.val / 64, by omega⟩ rfl,
        k_at x w bi b _ m d ⟨8 * b.val + j.val / 64, by omega⟩ rfl]
      rfl
    · exact v_at x w bi b _ m _ ⟨8 * b.val + j.val / 64, by omega⟩ rfl
  · exact congrArg bo (funext fun a => match a with | ⟨0, _⟩ => rfl)

end Cert.ReferenceIdeal.RefValue

end
-- ==== Proof.Algebra.lean ====
/-
  The algebra that joins the two programs, over plain arrays of extended reals.

  On real data the kernel's last stage, taken over kv = (kᵀ · v) · (1/8), equals the reference's
  attention followed by the output projection:
    Σ_h Σ_e (Σ_d q[d] · ((Σ_m k[m,d] · v[m,e]) · 1/8)) · w[c, 64h+e]
      = Σ_j (Σ_m ((Σ_d q[d] · k[m,d]) / 8) · v[m, j % 64]) · w[c, j],
  because a sum over 512 = 8 · 64 positions is a sum over 8 blocks of 64, division by 8 is multiplication
  by 1/8, and (q · kᵀ) · v = q · (kᵀ · v) for finite sums of reals.
-/
import Mathlib
import Idealize.ShloMosaic.PureOps.Ideal
import Idealize.ShloMosaic.Lib.ValueIdx
import proofs.«101738_j19086834664148_2_alg».proof.Proof.Spec
import proofs.«101738_j19086834664148_2_alg».proof.Proof.LibBlockSums

noncomputable section

namespace Cert.Spec

open Idealize.ShloMosaic Idealize.ShloMosaic.ValueIdx
open scoped BigOperators

/-- every entry of an array is a real number -/
def Real1 {a : ℕ} (f : Arr1 a) : Prop := ∀ i, ∃ r : ℝ, f i = (r : EReal)
/-- every entry of an array is a real number -/
def Real2 {a b : ℕ} (f : Arr2 a b) : Prop := ∀ i, ∃ r : ℝ, f i = (r : EReal)
/-- every entry of an array is a real number -/
def Real3 {a b c : ℕ} (f : Arr3 a b c) : Prop := ∀ i, ∃ r : ℝ, f i = (r : EReal)

/-! ### Sums and products of reals, inside the extended reals -/

/-- The coercion of a finite real sum is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

theorem real_add {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

theorem real_sum {ι : Type*} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    rw [Finset.sum_insert ha]
    exact real_add (h a (Finset.mem_insert_self a s)) (ih fun i hi => h i (Finset.mem_insert_of_mem hi))

/-! ### The two constants -/

/-- The word 0x41000000 denotes the real 8. -/
theorem eight_eq : eight = ((8 : ℝ) : EReal) := by
  simp [Ideal.ofBits, Ideal.ieee, -EReal.coe_mul]; norm_num

/-- The word 0x3E000000 denotes the real 1/8. -/
theorem eighth_eq : eighth = ((1 / 8 : ℝ) : EReal) := by
  simp [Ideal.ofBits, Ideal.ieee, -EReal.coe_mul]; norm_num

/-! ### The identity over the reals -/

/-- (q · kᵀ) · v = q · (kᵀ · v), with the scale 1/8 on either side: for real q[d], k[m, d], v[m],
    Σ_d q[d] · ((Σ_m k[m, d] · v[m]) · 1/8) = Σ_m ((Σ_d q[d] · k[m, d]) · 1/8) · v[m]. -/
theorem real_assoc {D M : Type*} [Fintype D] [Fintype M] (q : D → ℝ) (k : M → D → ℝ) (v : M → ℝ) :
    ∑ d, q d * ((∑ m, k m d * v m) * (1 / 8)) = ∑ m, ((∑ d, q d * k m d) * (1 / 8)) * v m := by
  simp only [Finset.sum_mul, Finset.mul_sum]
  rw [Finset.sum_comm]
  refine Finset.sum_congr rfl fun m _ => Finset.sum_congr rfl fun d _ => ?_
  ring

/-- The same identity between extended reals that are coerced reals, with the reference's division by the
    word of 8 on the right and the kernel's product with the word of 1/8 on the left. -/
theorem ereal_assoc {D M : Type*} [Fintype D] [Fintype M] (q : D → ℝ) (k : M → D → ℝ) (v : M → ℝ) :
    ∑ d, (q d : EReal) * ((∑ m, (k m d : EReal) * (v m : EReal)) * eighth)
      = ∑ m, Ideal.div (∑ d, (q d : EReal) * (k m d : EReal)) eight * (v m : EReal) := by
  rw [eighth_eq, eight_eq]
  simp only [Ideal.div_coe (show (8 : ℝ) ≠ 0 by norm_num), ← EReal.coe_mul, ← coe_finset_sum]
  exact congrArg _ (real_assoc q k v)

/-! ### The two output stages agree -/

/-- One head's attention row against one column of v, at fixed (bh, n, e): the kernel's
    Σ_d q[bh, n, d] · kv[bh, d, e] is the reference's Σ_m ((Σ_d q[bh, n, d] · k[bh, m, d]) / 8) · v[bh, m, e]. -/
theorem stage_term (Q K V : Arr3 32 2304 64) (hQ : Real3 Q) (hK : Real3 K) (hV : Real3 V)
    (bh : Fin 32) (n : Fin 2304) (e : Fin 64) :
    ∑ d : Fin 64, Q (ix3 bh n d) * kvArr K V (ix3 bh d e)
      = ∑ m : Fin 2304, Ideal.div (∑ d : Fin 64, Q (ix3 bh n d) * K (ix3 bh m d)) eight * V (ix3 bh m e) := by
  choose q hq using hQ
  choose k hk using hK
  choose v hv using hV
  show ∑ d : Fin 64, Q (ix3 bh n d) * ((∑ m : Fin 2304, K (ix3 bh m d) * V (ix3 bh m e)) * eighth) = _
  simp only [hq, hk, hv]
  exact ereal_assoc (fun d => q (ix3 bh n d)) (fun m d => k (ix3 bh m d)) (fun m => v (ix3 bh m e))

/-- At one output coordinate (b, n, c). -/
theorem fusedAt_eq_refFormAt (Q K V : Arr3 32 2304 64) (wout : Arr2 512 512) (bo : Arr1 512)
    (hQ : Real3 Q) (hK : Real3 K) (hV : Real3 V) (b : Fin 4) (n : Fin 2304) (c : Fin 512) :
    fusedAt Q (kvArr K V) (woutHeads wout) bo b n c = refFormAt Q K V wout bo b n c := by
  unfold fusedAt refFormAt
  congr 1
  refine Eq.trans ?_ (Cert.BlockSums.sum_blocks_fin 8 64 rfl _)
  refine Finset.sum_congr rfl fun h _ => Finset.sum_congr rfl fun e _ => ?_
  have hb := b.isLt
  have hh := h.isLt
  have he := e.isLt
  have h1 : ∀ p, (⟨8 * b.val + (64 * h.val + e.val) / 64, p⟩ : Fin 32) = ⟨8 * b.val + h.val, by omega⟩ :=
    fun _ => Fin.ext (by show 8 * b.val + (64 * h.val + e.val) / 64 = 8 * b.val + h.val; omega)
  have h2 : ∀ p, (⟨(64 * h.val + e.val) % 64, p⟩ : Fin 64) = e :=
    fun _ => Fin.ext (by show (64 * h.val + e.val) % 64 = e.val; omega)
  dsimp only
  simp only [h1, h2]
  rw [← stage_term Q K V hQ hK hV ⟨8 * b.val + h.val, by omega⟩ n e]
  rfl

/-- The kernel's last stage over kv = (kᵀ · v) · (1/8) is the reference's attention and output projection. -/
theorem fused_eq_refForm (Q K V : Arr3 32 2304 64) (wout : Arr2 512 512) (bo : Arr1 512)
    (hQ : Real3 Q) (hK : Real3 K) (hV : Real3 V) (hw : Real2 wout) :
    fused Q (kvArr K V) (woutHeads wout) bo = refForm Q K V wout bo := by
  funext i
  exact fusedAt_eq_refFormAt Q K V wout bo hQ hK hV (i 0) (i 1) (i 2)

/-! ### Real entries are kept by the first stages -/

theorem linear_real (X : Arr2 9216 512) (w : Arr2 1536 512) (bi : Arr1 1536)
    (hX : Real2 X) (hw : Real2 w) (hb : Real1 bi) : Real2 (linear X w bi) :=
  fun _ => real_add (real_sum _ _ fun _ _ => real_mul (hX _) (hw _)) (hb _)

theorem rows_real (x : Arr3 4 2304 512) (hx : Real3 x) : Real2 (rows x) :=
  fun _ => hx _

theorem heads_real (Y : Arr2 9216 1536) (s : Fin 3) (hY : Real2 Y) : Real3 (heads Y s) :=
  fun _ => hY _

/-- On real arguments the kernel's function of the five arrays is the reference's. -/
theorem kernelOut_eq_refOut (x : Arr3 4 2304 512) (w : Arr2 1536 512) (bi : Arr1 1536) (wout : Arr2 512 512)
    (bo : Arr1 512) (hx : Real3 x) (hw : Real2 w) (hb : Real1 bi) (hwo : Real2 wout) :
    kernelOut x w bi wout bo = refOut x w bi wout bo :=
  fused_eq_refForm _ _ _ wout bo
    (heads_real _ 0 (linear_real _ w bi (rows_real x hx) hw hb))
    (heads_real _ 1 (linear_real _ w bi (rows_real x hx) hw hb))
    (heads_real _ 2 (linear_real _ w bi (rows_real x hx) hw hb)) hwo

end Cert.Spec

end
-- ==== Proof.LibFiniteEntries.lean ====
/-
  Reading a "every entry is finite" precondition back, on the extended reals, for any shape.

  A precondition conjunct `jnp.all(jnp.abs(a) < inf)` prints as a reduction by `and`, from the constant 1 into a
  scalar, of the comparison of |a| with the splat of the pattern 0x7F800000. That pattern denotes +∞; on the extended
  reals |v| = max v (-v) is below +∞ exactly when v is a real number. So a conjunct that evaluates to 1 says that
  every entry of the array is (the coercion of) a real number.
-/
import Idealize.ShloMosaic.PureOps.Ideal
import Idealize.ShloMosaic.Lib.ReduceAll
import Idealize.ShloMosaic.Lib.Pipeline.Value
import Idealize.ShloMosaic.Lib.ValueIdx

noncomputable section

namespace Cert.Lib.FiniteEntries

open Idealize.ShloMosaic Idealize.ShloMosaic.ValueIdx

/-- The pattern 0x7F800000 denotes +∞. -/
theorem ofBits_inf : Ideal.ofBits .f32 0x7F800000#32 = (⊤ : EReal) := by
  simp [Ideal.ofBits, Ideal.ieee]

/-- An extended real whose absolute value compares below +∞ is a real number. -/
theorem real_of_abs_lt_inf (v : EReal)
    (h : FloatOps.cmpf (F := Ideal) (φ := .f32) .olt (FloatOps.hostAbsf (F := Ideal) (φ := .f32) v)
      (Ideal.ofBits .f32 0x7F800000#32) = 1#1) : ∃ r : ℝ, v = (r : EReal) := by
  rw [ofBits_inf] at h
  have h' : max v (-v) < (⊤ : EReal) := by
    by_contra hn
    have h0 : FloatOps.cmpf (F := Ideal) (φ := .f32) .olt (FloatOps.hostAbsf (F := Ideal) (φ := .f32) v) (⊤ : EReal)
        = 0#1 := by
      show BitVec.ofBool (decide (max v (-v) < (⊤ : EReal))) = 0#1
      rw [decide_eq_false hn]; rfl
    rw [h0] at h
    exact absurd h (by decide)
  induction v using EReal.rec with
  | bot => exact absurd h' (by simp)
  | coe r => exact ⟨r, rfl⟩
  | top => exact absurd h' (by simp)

/-- The scalar shape has one index. -/
instance : Subsingleton (⟨0, ![]⟩ : Shape).Idx := ⟨fun a b => funext fun d => d.elim0⟩

/-- ONE CONJUNCT OF THE PRECONDITION, READ BACK: if the reduction by `and` of "|a| < +∞" over all axes is 1, every
    entry of the array a is a real number. -/
theorem real_of_all {s : Shape} {axes : List (Fin s.rank)} (a : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi (cmpf .olt (Host.absf a)
        (broadcastInDim s ![] hb (constant (F := Ideal) ⟨0, ![]⟩ .f32 0x7F800000#32)))
      (constantI (⟨0, ![]⟩ : Shape) 1 1#1) hr hu ix0 = 1#1) (i : s.Idx) : ∃ r : ℝ, a i = (r : EReal) := by
  have hi := Host.reduce_andi_all _ _ hr hu ix0 e i
  have hs : broadcastInDim s ![] hb (constant (F := Ideal) ⟨0, ![]⟩ .f32 0x7F800000#32) i
      = Ideal.ofBits .f32 0x7F800000#32 := broadcastInDim_apply _ hb _ i ix0 (fun d => d.elim0)
  have h2 : FloatOps.cmpf (F := Ideal) (φ := .f32) .olt (FloatOps.hostAbsf (F := Ideal) (φ := .f32) (a i))
      (broadcastInDim s ![] hb (constant (F := Ideal) ⟨0, ![]⟩ .f32 0x7F800000#32) i) = 1#1 := hi
  rw [hs] at h2
  exact real_of_abs_lt_inf (a i) h2

end Cert.Lib.FiniteEntries

end
-- ==== Proof.Finite.lean ====
/-
  From the precondition to real entries: each of the five argument arrays of the kernel has only real
  numbers as entries, because the precondition is the conjunction of five "all |a| < +∞".
-/
import proofs.«101738_j19086834664148_2_alg».proof.Defs
import proofs.«101738_j19086834664148_2_alg».proof.Proof.Algebra
import proofs.«101738_j19086834664148_2_alg».proof.Proof.LibFiniteEntries

noncomputable section

namespace Cert.Proof.Finite
open Idealize.ShloMosaic Idealize.SL.Sem
theorem real_args [Cert.KernelIdeal.Facts] [Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) :
    Cert.Spec.Real3 (m ((c.tc : Thread Cert.KernelIdeal.nD Cert.KernelIdeal.τ).loc Cert.KernelIdeal.main_arg0) : Cert.KernelIdeal.S4x2304x512.Idx → EReal)
    ∧ Cert.Spec.Real2 (m ((c.tc : Thread Cert.KernelIdeal.nD Cert.KernelIdeal.τ).loc Cert.KernelIdeal.main_arg1) : Cert.KernelIdeal.S1536x512.Idx → EReal)
    ∧ Cert.Spec.Real1 (m ((c.tc : Thread Cert.KernelIdeal.nD Cert.KernelIdeal.τ).loc Cert.KernelIdeal.main_arg2) : Cert.KernelIdeal.S1536.Idx → EReal)
    ∧ Cert.Spec.Real2 (m ((c.tc : Thread Cert.KernelIdeal.nD Cert.KernelIdeal.τ).loc Cert.KernelIdeal.main_arg3) : Cert.KernelIdeal.S512x512.Idx → EReal)
    ∧ Cert.Spec.Real1 (m ((c.tc : Thread Cert.KernelIdeal.nD Cert.KernelIdeal.τ).loc Cert.KernelIdeal.main_arg4) : Cert.KernelIdeal.S512.Idx → EReal) := by
  have hc := congrFun (h c) ValueIdx.ix0
  dsimp only [Cert.Pre_finite_inputs.fn, Cert.Pre_finite_inputs.fn_part1] at hc
  obtain ⟨h1234, h5⟩ := IntOp.andi_eq_one.1 (show IntOp.andi _ _ = 1#1 from hc)
  obtain ⟨h123, h4⟩ := IntOp.andi_eq_one.1 (show IntOp.andi _ _ = 1#1 from h1234)
  obtain ⟨h12, h3⟩ := IntOp.andi_eq_one.1 (show IntOp.andi _ _ = 1#1 from h123)
  obtain ⟨h1, h2⟩ := IntOp.andi_eq_one.1 (show IntOp.andi _ _ = 1#1 from h12)
  exact ⟨fun i => Cert.Lib.FiniteEntries.real_of_all _ _ _ _ h1 i,
    fun i => Cert.Lib.FiniteEntries.real_of_all _ _ _ _ h2 i,
    fun i => Cert.Lib.FiniteEntries.real_of_all _ _ _ _ h3 i,
    fun i => Cert.Lib.FiniteEntries.real_of_all _ _ _ _ h4 i,
    fun i => Cert.Lib.FiniteEntries.real_of_all _ _ _ _ h5 i⟩
end Cert.Proof.Finite

end
-- ==== Proof.Claims.lean ====
/-
  The five claims. The three frames: the word-level kernel's and the idealized kernel's runs terminate without a
  fault and leave the arguments as launched (the pipelines' frame over three regions); the reference's run with its
  result dropped. Nothing was rewritten on the way to the idealized kernel, so that conjunct is trivial. The value
  claim: from memories that agree on the five arguments, the idealized kernel ends with its result array at
  `kernelOut` of the arguments, the reference with its result at `refOut` of the same arguments, and on finite
  inputs the two are one function: (q·kᵀ)·v = q·(kᵀ·v), x/8 = x·(1/8), and a sum over 512 = 8·64 columns is a
  sum over 8 heads of 64.
-/
import proofs.«101738_j19086834664148_2_alg».proof.Defs
import proofs.«101738_j19086834664148_2_alg».proof.Proof.Gen.Kernel
import proofs.«101738_j19086834664148_2_alg».proof.Proof.Gen.Kernel.Frame
import proofs.«101738_j19086834664148_2_alg».proof.Proof.Gen.KernelIdeal
import proofs.«101738_j19086834664148_2_alg».proof.Proof.Gen.KernelIdeal.Frame
import proofs.«101738_j19086834664148_2_alg».proof.Proof.Gen.ReferenceIdeal
import proofs.«101738_j19086834664148_2_alg».proof.Proof.Gen.ReferenceIdeal.Run
import proofs.«101738_j19086834664148_2_alg».proof.Proof.Gen.ReferenceIdeal.Read
import proofs.«101738_j19086834664148_2_alg».proof.Proof.Gen.Pre_finite_inputs
import proofs.«101738_j19086834664148_2_alg».proof.Proof.KernelRun
import proofs.«101738_j19086834664148_2_alg».proof.Proof.Chain
import proofs.«101738_j19086834664148_2_alg».proof.Proof.RefValue
import proofs.«101738_j19086834664148_2_alg».proof.Proof.Algebra
import proofs.«101738_j19086834664148_2_alg».proof.Proof.Finite

noncomputable section

namespace Cert.Proof.Claims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the same result array: the kernel's is `kernelOut` of its arguments (the run with the result
    named, then the boundary contents read back), the reference's `refOut` of arguments that agree with them, and
    the finite inputs make the two equal. -/
theorem algebraic : Cert.algebraic_KernelIdeal_ReferenceIdeal := by
  intro m ρ m' ρ' hpre hagree
  refine ⟨fun c => Cert.Spec.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.Chain.result m ρ c), (h c).2⟩)
      (Cert.KernelIdeal.Gen.run_value (F := Ideal) m ρ)
  · refine (θ_run Cert.ReferenceIdeal.defs _ _).mono (fun _ h c => ⟨(h c).1.trans ?_, (h c).2⟩)
      (Cert.ReferenceIdeal.Value.run (F := Ideal) m' ρ')
    obtain ⟨hx, hw, hb, hwo, _⟩ := Cert.Proof.Finite.real_args m hpre c
    rw [Cert.ReferenceIdeal.Read.val_main_v22_eq, (hagree c).1, (hagree c).2.1, (hagree c).2.2.1, (hagree c).2.2.2.1,
      (hagree c).2.2.2.2]
    exact (Cert.ReferenceIdeal.RefValue.result_eq _ _ _ _ _).trans
      (Cert.Spec.kernelOut_eq_refOut _ _ _ _ _ hx hw hb hwo).symm

end Cert.Proof.Claims

end
-- ==== Proof.lean ====
/- The proof of `Cert.Claim`: a softmax-free attention block — input projection, heads cut from the token axis,
   kv = (kᵀ·v)/8 per head, and the attention output fused with the output projection, accumulated head by head —
   against the plain reference that forms the full score matrix (q·kᵀ)/8 first. The frames of the three programs,
   the (empty) list of idealization rewrites, and the equality of the two results on finite inputs are proved in
   Proof/Claims.lean over: the kernel's run with its result named (Proof/KernelRun.lean), the value each of its three
   regions leaves (Proof/Region0.lean, Region1.lean, Region2.lean), the host operations between them read at an
   index (Proof/HostGlue.lean), the boundary contents read back (Proof/Chain.lean), the reference's value
   (Proof/RefValue.lean), and the algebra over the reals with the inputs' finiteness (Proof/Algebra.lean,
   Proof/Finite.lean); the common specification is Proof/Spec.lean. -/
import proofs.«101738_j19086834664148_2_alg».proof.Defs
import proofs.«101738_j19086834664148_2_alg».proof.Proof.Gen.Kernel
import proofs.«101738_j19086834664148_2_alg».proof.Proof.Gen.Kernel.Skeleton
import proofs.«101738_j19086834664148_2_alg».proof.Proof.Gen.Kernel.Launch
import proofs.«101738_j19086834664148_2_alg».proof.Proof.Gen.Kernel.Points
import proofs.«101738_j19086834664148_2_alg».proof.Proof.Gen.Kernel.Frame
import proofs.«101738_j19086834664148_2_alg».proof.Proof.Gen.KernelIdeal
import proofs.«101738_j19086834664148_2_alg».proof.Proof.Gen.KernelIdeal.Skeleton
import proofs.«101738_j19086834664148_2_alg».proof.Proof.Gen.KernelIdeal.Launch
import proofs.«101738_j19086834664148_2_alg».proof.Proof.Gen.KernelIdeal.Points
import proofs.«101738_j19086834664148_2_alg».proof.Proof.Gen.KernelIdeal.Frame
import proofs.«101738_j19086834664148_2_alg».proof.Proof.Gen.ReferenceIdeal
import proofs.«101738_j19086834664148_2_alg».proof.Proof.Gen.Pre_finite_inputs
import proofs.«101738_j19086834664148_2_alg».proof.Proof.Gen.ReferenceIdeal.Run
import proofs.«101738_j19086834664148_2_alg».proof.Proof.Gen.ReferenceIdeal.Read
import proofs.«101738_j19086834664148_2_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
